-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S64x512 : Shape := ⟨2, ![64, 512]⟩
abbrev S512x512 : Shape := ⟨2, ![512, 512]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S512x4096 .f32) (main_arg1 : FVec F S64x512 .f32) (main_arg2 : FVec F S64x512 .f32) (main_arg3 : FVec F S512x512 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S512x4096 : Shape := ⟨2, ![512, 4096]⟩
abbrev S64x512 : Shape := ⟨2, ![64, 512]⟩
abbrev S512x512 : Shape := ⟨2, ![512, 512]⟩
abbrev S640x512 : Shape := ⟨2, ![640, 512]⟩
abbrev S640x4096 : Shape := ⟨2, ![640, 4096]⟩
abbrev S512x1024 : Shape := ⟨2, ![512, 1024]⟩
abbrev S640x1024 : Shape := ⟨2, ![640, 1024]⟩
abbrev S64x4096 : Shape := ⟨2, ![64, 4096]⟩
abbrev S4096x512 : Shape := ⟨2, ![4096, 512]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S512x4096, .f32⟩
  | .hbm, ⟨1, _⟩ => ⟨S64x512, .f32⟩
  | .hbm, ⟨2, _⟩ => ⟨S64x512, .f32⟩
  | .hbm, ⟨3, _⟩ => ⟨S512x512, .f32⟩
  | .hbm, ⟨4, _⟩ => ⟨S640x512, .f32⟩
  | .hbm, ⟨5, _⟩ => ⟨S640x4096, .f32⟩
  | .hbm, ⟨6, _⟩ => ⟨S64x4096, .f32⟩
  | .hbm, ⟨7, _⟩ => ⟨S64x4096, .f32⟩
  | .hbm, ⟨8, _⟩ => ⟨S512x4096, .f32⟩
  | .hbm, ⟨9, _⟩ => ⟨S4096x512, .f32⟩
  | .local _ .vmem, ⟨0, _⟩ => ⟨S640x512, .f32⟩
  | .local _ .vmem, ⟨1, _⟩ => ⟨S512x1024, .f32⟩
  | .local _ .vmem, ⟨2, _⟩ => ⟨S512x1024, .f32⟩
  | .local _ .vmem, ⟨3, _⟩ => ⟨S640x1024, .f32⟩
  | .local _ .vmem, ⟨4, _⟩ => ⟨S640x1024, .f32⟩
  | .local _ .vmem, ⟨5, _⟩ => ⟨S64x512, .f32⟩
  | .local _ .vmem, ⟨6, _⟩ => ⟨S64x512, .f32⟩
  | .local _ .vmem, ⟨7, _⟩ => ⟨S64x4096, .f32⟩
  | .local _ .vmem, ⟨8, _⟩ => ⟨S512x4096, .f32⟩
  | .local _ .vmem, ⟨9, _⟩ => ⟨S512x512, .f32⟩
  | .local _ .vmem, ⟨10, _⟩ => ⟨S512x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S640x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S64x512_S64x512_S512x512_S640x512_d0 : Shape.Concatenates [S64x512, S64x512, S512x512] S640x512 0
  inb_S640x512_S640x512_0_0 : ∀ a, (![0, 0] : Fin 2 → Nat) a + S640x512.size a ≤ S640x512.size a
  h_S640x512 : 0 < S640x512.numel
  shapeCasts_S640x512_S640x512 : S640x512.ShapeCasts S640x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S640x1024_S640x1024_0_0 : ∀ a, (![0, 0] : Fin 2 → Nat) a + S640x1024.size a ≤ S640x1024.size a
  h_S640x1024 : 0 < S640x1024.numel
  slices_S640x4096_S64x4096_0_0 : S640x4096.Slices ![0, 0] S64x4096
  slices_S640x4096_S64x4096_64_0 : S640x4096.Slices ![64, 0] S64x4096
  slices_S640x4096_S512x4096_128_0 : S640x4096.Slices ![128, 0] S512x4096
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  broadcasts_S512x1_S512x512 : S512x1.Broadcasts S512x512
  inb_S512x512_S512x512_0_0 : ∀ a, (![0, 0] : Fin 2 → Nat) a + S512x512.size a ≤ S512x512.size a
  h_S512x512 : 0 < S512x512.numel
  dot_S640x512_S512x1024_S640x1024_1_0_0_1_n_n_wf : DotDims.WF S640x512 S512x1024 S640x1024 [1] [0] [0] [1] [] []
  dot_S64x512_S64x4096_S512x4096_0_0_1_1_n_n_wf : DotDims.WF S64x512 S64x4096 S512x4096 [0] [0] [1] [1] [] []
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S640x512.size a ≤ S640x512.size a
  hwx0_0 : ∀ i : grid0.Coords, EltTy.bits .f32 = 32 ∨ (Rect.block (s := S640x512) S640x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x4096.size a
  hwx0_1 : ∀ i : grid0.Coords, EltTy.bits .f32 = 32 ∨ (Rect.block (s := S512x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S640x1024.size a ≤ S640x4096.size a
  hwx0_2 : ∀ i : grid0.Coords, EltTy.bits .f32 = 32 ∨ (Rect.block (s := S640x4096) S640x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S64x4096.size a
  hwx1_0 : ∀ i : grid1.Coords, EltTy.bits .f32 = 32 ∨ (Rect.block (s := S64x4096) S64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S64x4096.size a
  hwx1_1 : ∀ i : grid1.Coords, EltTy.bits .f32 = 32 ∨ (Rect.block (s := S64x4096) S64x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S512x4096.size a
  hwx1_2 : ∀ i : grid1.Coords, EltTy.bits .f32 = 32 ∨ (Rect.block (s := S512x4096) S512x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x512.size a
  hwx1_3 : ∀ i : grid1.Coords, EltTy.bits .f32 = 32 ∨ (Rect.block (s := S4096x512) S512x512.size (cc1_transform_3 i) (hinb1_3 i)).WholeWords (EltTy.packing .f32)

variable [Facts₀]

def dot_S640x512_S512x1024_S640x1024_1_0_0_1_n_n : DotDims S640x512 S512x1024 S640x1024 where
  lhsContracting := [1]
  rhsContracting := [0]
  lhsNonContracting := [0]
  rhsNonContracting := [1]
  lhsBatch := []
  rhsBatch := []
  wf := dot_S640x512_S512x1024_S640x1024_1_0_0_1_n_n_wf
def dot_S64x512_S64x4096_S512x4096_0_0_1_1_n_n : DotDims S64x512 S64x4096 S512x4096 where
  lhsContracting := [0]
  rhsContracting := [0]
  lhsNonContracting := [1]
  rhsNonContracting := [1]
  lhsBatch := []
  rhsBatch := []
  wf := dot_S64x512_S64x4096_S512x4096_0_0_1_1_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S640x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S640x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x4096 : Shape := ⟨2, ![512, 4096]⟩
abbrev S64x512 : Shape := ⟨2, ![64, 512]⟩
abbrev S512x512 : Shape := ⟨2, ![512, 512]⟩
abbrev S64x4096 : Shape := ⟨2, ![64, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S4096x512 : Shape := ⟨2, ![4096, 512]⟩

abbrev nBuf : Space → Nat
  | .hbm => 24
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S64x512, .f32⟩
  | .hbm, ⟨2, _⟩ => ⟨S64x512, .f32⟩
  | .hbm, ⟨3, _⟩ => ⟨S512x512, .f32⟩
  | .hbm, ⟨4, _⟩ => ⟨S64x4096, .f32⟩
  | .hbm, ⟨5, _⟩ => ⟨S64x4096, .f32⟩
  | .hbm, ⟨6, _⟩ => ⟨S512x4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x512, .f32⟩
  | .hbm, ⟨23, _⟩ => ⟨S4096x512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S512x4096_S4096x512_1_0 : S512x4096.Transposes [1, 0] S4096x512
  dot_S64x512_S512x4096_S64x4096_1_0_0_1_n_n_wf : DotDims.WF S64x512 S512x4096 S64x4096 [1] [0] [0] [1] [] []
  dot_S512x512_S512x4096_S512x4096_1_0_0_1_n_n_wf : DotDims.WF S512x512 S512x4096 S512x4096 [1] [0] [0] [1] [] []
  dot_S64x4096_S64x4096_S4096x4096_0_0_1_1_n_n_wf : DotDims.WF S64x4096 S64x4096 S4096x4096 [0] [0] [1] [1] [] []
  dot_S4096x4096_S4096x512_S4096x512_1_0_0_1_n_n_wf : DotDims.WF S4096x4096 S4096x512 S4096x512 [1] [0] [0] [1] [] []

variable [Facts₀]

def dot_S64x512_S512x4096_S64x4096_1_0_0_1_n_n : DotDims S64x512 S512x4096 S64x4096 where
  lhsContracting := [1]
  rhsContracting := [0]
  lhsNonContracting := [0]
  rhsNonContracting := [1]
  lhsBatch := []
  rhsBatch := []
  wf := dot_S64x512_S512x4096_S64x4096_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S64x4096_S64x4096_S4096x4096_0_0_1_1_n_n : DotDims S64x4096 S64x4096 S4096x4096 where
  lhsContracting := [0]
  rhsContracting := [0]
  lhsNonContracting := [1]
  rhsNonContracting := [1]
  lhsBatch := []
  rhsBatch := []
  wf := dot_S64x4096_S64x4096_S4096x4096_0_0_1_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.KRegion0.lean ====
/-
  The projection region, one grid point at a time.

  The region multiplies the stacked 640 x 512 weight matrix, resident whole in its staging buffer, with the block of
  1024 columns of the 512 x 4096 feature matrix that the grid point names, and stores the 640 x 1024 product as that
  point's block of the output. This module states what one run of the body does to the staging buffers — the two
  inputs kept, the output's buffer left at the product of the two loaded blocks — and packages it as the
  pipeline's per-point obligation, for whatever contents the arrays have when the region is entered.
-/
import proofs.«144916_j9148280341193_2_alg».proof.Proof.Gen.Kernel.Launch
import proofs.«144916_j9148280341193_2_alg».proof.Proof.Gen.Kernel.Skeleton
import proofs.«144916_j9148280341193_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter this half is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    not (unfetched, its block index has not moved), for any proof data whose array is the entry contents and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    not (unfetched, its block index has not moved), for any proof data whose array is the entry contents and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/

abbrev r0_0 : Rect S640x512 := Rect.unit (s := S640x512) ![0, 0] S640x512.size inb_S640x512_S640x512_0_0
abbrev r0_1 : Rect S512x1024 := Rect.unit (s := S512x1024) ![0, 0] S512x1024.size inb_S512x1024_S512x1024_0_0
abbrev r0_2 : Rect S640x1024 := Rect.unit (s := S640x1024) ![0, 0] S640x1024.size inb_S640x1024_S640x1024_0_0

/-! ## What the body leaves in the output window's buffer -/

/-- The output's staging buffer after the body, from the input windows' blocks: its one store, of the body's
    arithmetic applied to the loaded blocks. -/
def out0_2 (x0 : Vec F S640x512 .f32) (x1 : Vec F S512x1024 .f32) : Vec F S640x1024 .f32 :=
  View.canon [⟨r0_2, k0_pay1 (View.ld x0 r0_0) (View.ld x1 r0_1)⟩]

/-- The store covers the buffer. -/
theorem cover0_2 (p0 : Vec F S640x1024 .f32) (y : S640x1024.Idx) :
    ∃ pc ∈ ([⟨r0_2, p0⟩] : List (View.Piece (Elt F) S640x1024 .f32)), y ∈ pc.1.set :=
  View.cover_of_tiled [⟨r0_2, p0⟩] S640x1024.size (by rfl) y

/-! ## The body's triple -/

set_option maxHeartbeats 1000000 in
/-- The kernel body on whole staging buffers, the inputs' at known contents and the output's at anything, runs to a
    state holding the inputs' as they were and the output's at `out0_2` of the inputs'. -/
theorem sound_kernel0 (c : Dev nD) (E : Set ℕ) (i : grid0.Coords) (arg0 : Memref sig .tc .vmem S640x512 .f32) (harg0 : arg0.IsWhole) (arg1 : Memref sig .tc .vmem S512x1024 .f32) (harg1 : arg1.IsWhole) (arg2 : Memref sig .tc .vmem S640x1024 .f32) (harg2 : arg2.IsWhole)
    (x0 : Vec F S640x512 .f32) (x1 : Vec F S512x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The attention region, one grid point at a time.

  A grid point handles 512 query positions: it loads the 64 x 512 block of key columns for those positions, the
  whole 64 x 4096 query projection and the whole 512 x 4096 value projection, and stores the 512 x 512 block of
  softmax-weighted value means. This module states what one run of the body does to the staging buffers — the three
  inputs kept, the output's buffer left at the body's arithmetic of the three loaded blocks — and packages it as the
  pipeline's per-point obligation, for whatever contents the arrays have when the region is entered.
-/
import proofs.«144916_j9148280341193_2_alg».proof.Proof.Gen.Kernel.Launch
import proofs.«144916_j9148280341193_2_alg».proof.Proof.Gen.Kernel.Skeleton
import proofs.«144916_j9148280341193_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter this half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not (unfetched, its block index has not moved), for any proof data whose array is the entry contents and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or
    not (unfetched, its block index has not moved), for any proof data whose array is the entry contents and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or
    not (unfetched, its block index has not moved), for any proof data whose array is the entry contents and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_0 : Rect S64x512 := Rect.unit (s := S64x512) ![0, 0] S64x512.size inb_S64x512_S64x512_0_0
abbrev r1_1 : Rect S64x4096 := Rect.unit (s := S64x4096) ![0, 0] S64x4096.size inb_S64x4096_S64x4096_0_0
abbrev r1_2 : Rect S512x4096 := Rect.unit (s := S512x4096) ![0, 0] S512x4096.size inb_S512x4096_S512x4096_0_0
abbrev r1_3 : Rect S512x512 := Rect.unit (s := S512x512) ![0, 0] S512x512.size inb_S512x512_S512x512_0_0

/-! ## What the body leaves in the output window's buffer -/

/-- The output's staging buffer after the body, from the input windows' blocks: its one store, of the body's
    arithmetic applied to the loaded blocks. -/
def out1_3 (x0 : Vec F S64x512 .f32) (x1 : Vec F S64x4096 .f32) (x2 : Vec F S512x4096 .f32) : Vec F S512x512 .f32 :=
  View.canon [⟨r1_3, k1_pay1 (View.ld x0 r1_0) (View.ld x1 r1_1) (View.ld x2 r1_2)⟩]

/-- The store covers the buffer. -/
theorem cover1_3 (p0 : Vec F S512x512 .f32) (y : S512x512.Idx) :
    ∃ pc ∈ ([⟨r1_3, p0⟩] : List (View.Piece (Elt F) S512x512 .f32)), y ∈ pc.1.set :=
  View.cover_of_tiled [⟨r1_3, p0⟩] S512x512.size (by rfl) y

/-! ## The body's triple -/

set_option maxHeartbeats 1000000 in
/-- The kernel body on whole staging buffers, the inputs' at known contents and the output's at anything, runs to a
    state holding the inputs' as they were and the output's at `out1_3` of the inputs'. -/
theorem sound_kernel1 (c : Dev nD) (E : Set ℕ) (i : grid1.Coords) (arg0 : Memref sig .tc .vmem S64x512 .f32) (harg0 : arg0.IsWhole) (arg1 : Memref sig .tc .vmem S64x4096 .f32) (harg1 : arg1.IsWhole) (arg2 : Memref sig .tc .vmem S512x4096 .f32) (harg2 : arg2.IsWhole) (arg3 : Memref sig .tc .vmem S512x512 .f32) (harg3 : arg3.IsWhole)
    (x0 : Vec F S64x512 .f32) (x1 : Vec F S64x4096 .f32) (x2 : Vec F S512x4096 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t`
    each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program as a run: the weights stacked, the projection region, the three row slices, the attention region.

  The buffer contents at each boundary between these four items are folded from the launch memory: a stretch of host
  operations applies its operations; a region leaves each of its arrays at what the pipeline's write-backs leave and
  every other buffer as it found it. Every argument array is read back through the fold to its launch contents (no
  host operation writes one, and a region only reads them), and at the end every unscoped buffer holds the last
  boundary's contents — in particular the result array holds what the attention region's write-backs leave.
-/
import proofs.«144916_j9148280341193_2_alg».proof.Proof.Gen.Kernel.Launch
import proofs.«144916_j9148280341193_2_alg».proof.Proof.Gen.Kernel.Skeleton
import proofs.«144916_j9148280341193_2_alg».proof.Proof.Gen.Kernel.Points
import proofs.«144916_j9148280341193_2_alg».proof.Proof.KRegion0
import proofs.«144916_j9148280341193_2_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the weights are stacked (the projection region's entry). -/
abbrev W1 : Dev nD → Valuation τ sig (Elt F) := fun c => StableHlo.after hostOps0 (W0 m ρ c)
/-- The same read at the core's references. -/
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three slices (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches leave alone -/

/-- Stacking the weights writes only the stacked matrix. -/
theorem keep0 (W : Valuation τ sig (Elt F)) (b : Ref sig .tc) (hb : b ≠ main_v0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

/-- The slices write only the three projections. -/
theorem keep1 (W : Valuation τ sig (Elt F)) (b : Ref sig .tc) (h2 : b ≠ main_v2) (h3 : b ≠ main_v3) (h4 : b ≠ main_v4) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.unary_writes, Finset.mem_singleton]
    exact ⟨StableHlo.devRef_ne_of_ne h2, StableHlo.devRef_ne_of_ne h3, StableHlo.devRef_ne_of_ne h4⟩))

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := keep1 _ main_arg0 (by decide) (by decide) (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := keep0 _ main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := keep1 _ main_arg1 (by decide) (by decide) (by decide)
    _ = W1 m ρ c (Proc.devRef .tc main_arg1) := W2_of_ne m ρ c main_arg1 (by decide)
    _ = W0 m ρ c (Proc.devRef .tc main_arg1) := keep0 _ main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := keep1 _ main_arg2 (by decide) (by decide) (by decide)
    _ = W1 m ρ c (Proc.devRef .tc main_arg2) := W2_of_ne m ρ c main_arg2 (by decide)
    _ = W0 m ρ c (Proc.devRef .tc main_arg2) := keep0 _ main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := keep1 _ main_arg3 (by decide) (by decide) (by decide)
    _ = W1 m ρ c (Proc.devRef .tc main_arg3) := W2_of_ne m ρ c main_arg3 (by decide)
    _ = W0 m ρ c (Proc.devRef .tc main_arg3) := keep0 _ main_arg3 (by decide)
    _ = m ((c : Thread nD τ).loc main_arg3) := rfl

/-- The result array ends at what the attention region's write-backs leave. -/
theorem W4_main_v5 (c : Dev nD) : W4 m ρ c (Proc.devRef .tc main_v5) = (dat1 (V3 m ρ) c).arrAt 3 cfg1.N :=
  W4_arr m ρ c 3

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program terminates, nothing faulting, and
    in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The same run with the result array named: it ends at what the attention region's write-backs leave. -/
theorem run_out : θ_run defs (onTc (τ := τ) (main (F := F))) ⟨m, fun _ => 0, ρ⟩ (fun r => ∀ c : Dev nD,
      r.2.mem ((c.tc : Thread nD τ).loc main_v5) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W4_main_v5 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.KIRegion0.lean ====
/-
  The projection region, one grid point at a time.

  The region multiplies the stacked 640 x 512 weight matrix, resident whole in its staging buffer, with the block of
  1024 columns of the 512 x 4096 feature matrix that the grid point names, and stores the 640 x 1024 product as that
  point's block of the output. This module states what one run of the body does to the staging buffers — the two
  inputs kept, the output's buffer left at the product of the two loaded blocks — and packages it as the
  pipeline's per-point obligation, for whatever contents the arrays have when the region is entered.
-/
import proofs.«144916_j9148280341193_2_alg».proof.Proof.Gen.KernelIdeal.Launch
import proofs.«144916_j9148280341193_2_alg».proof.Proof.Gen.KernelIdeal.Skeleton
import proofs.«144916_j9148280341193_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter this half is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    not (unfetched, its block index has not moved), for any proof data whose array is the entry contents and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    not (unfetched, its block index has not moved), for any proof data whose array is the entry contents and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/

abbrev r0_0 : Rect S640x512 := Rect.unit (s := S640x512) ![0, 0] S640x512.size inb_S640x512_S640x512_0_0
abbrev r0_1 : Rect S512x1024 := Rect.unit (s := S512x1024) ![0, 0] S512x1024.size inb_S512x1024_S512x1024_0_0
abbrev r0_2 : Rect S640x1024 := Rect.unit (s := S640x1024) ![0, 0] S640x1024.size inb_S640x1024_S640x1024_0_0

/-! ## What the body leaves in the output window's buffer -/

/-- The output's staging buffer after the body, from the input windows' blocks: its one store, of the body's
    arithmetic applied to the loaded blocks. -/
def out0_2 (x0 : Vec F S640x512 .f32) (x1 : Vec F S512x1024 .f32) : Vec F S640x1024 .f32 :=
  View.canon [⟨r0_2, k0_pay1 (View.ld x0 r0_0) (View.ld x1 r0_1)⟩]

/-- The store covers the buffer. -/
theorem cover0_2 (p0 : Vec F S640x1024 .f32) (y : S640x1024.Idx) :
    ∃ pc ∈ ([⟨r0_2, p0⟩] : List (View.Piece (Elt F) S640x1024 .f32)), y ∈ pc.1.set :=
  View.cover_of_tiled [⟨r0_2, p0⟩] S640x1024.size (by rfl) y

/-! ## The body's triple -/

set_option maxHeartbeats 1000000 in
/-- The kernel body on whole staging buffers, the inputs' at known contents and the output's at anything, runs to a
    state holding the inputs' as they were and the output's at `out0_2` of the inputs'. -/
theorem sound_kernel0 (c : Dev nD) (E : Set ℕ) (i : grid0.Coords) (arg0 : Memref sig .tc .vmem S640x512 .f32) (harg0 : arg0.IsWhole) (arg1 : Memref sig .tc .vmem S512x1024 .f32) (harg1 : arg1.IsWhole) (arg2 : Memref sig .tc .vmem S640x1024 .f32) (harg2 : arg2.IsWhole)
    (x0 : Vec F S640x512 .f32) (x1 : Vec F S512x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  The attention region, one grid point at a time.

  A grid point handles 512 query positions: it loads the 64 x 512 block of key columns for those positions, the
  whole 64 x 4096 query projection and the whole 512 x 4096 value projection, and stores the 512 x 512 block of
  softmax-weighted value means. This module states what one run of the body does to the staging buffers — the three
  inputs kept, the output's buffer left at the body's arithmetic of the three loaded blocks — and packages it as the
  pipeline's per-point obligation, for whatever contents the arrays have when the region is entered.
-/
import proofs.«144916_j9148280341193_2_alg».proof.Proof.Gen.KernelIdeal.Launch
import proofs.«144916_j9148280341193_2_alg».proof.Proof.Gen.KernelIdeal.Skeleton
import proofs.«144916_j9148280341193_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter this half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not (unfetched, its block index has not moved), for any proof data whose array is the entry contents and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or
    not (unfetched, its block index has not moved), for any proof data whose array is the entry contents and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or
    not (unfetched, its block index has not moved), for any proof data whose array is the entry contents and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_0 : Rect S64x512 := Rect.unit (s := S64x512) ![0, 0] S64x512.size inb_S64x512_S64x512_0_0
abbrev r1_1 : Rect S64x4096 := Rect.unit (s := S64x4096) ![0, 0] S64x4096.size inb_S64x4096_S64x4096_0_0
abbrev r1_2 : Rect S512x4096 := Rect.unit (s := S512x4096) ![0, 0] S512x4096.size inb_S512x4096_S512x4096_0_0
abbrev r1_3 : Rect S512x512 := Rect.unit (s := S512x512) ![0, 0] S512x512.size inb_S512x512_S512x512_0_0

/-! ## What the body leaves in the output window's buffer -/

/-- The output's staging buffer after the body, from the input windows' blocks: its one store, of the body's
    arithmetic applied to the loaded blocks. -/
def out1_3 (x0 : Vec F S64x512 .f32) (x1 : Vec F S64x4096 .f32) (x2 : Vec F S512x4096 .f32) : Vec F S512x512 .f32 :=
  View.canon [⟨r1_3, k1_pay1 (View.ld x0 r1_0) (View.ld x1 r1_1) (View.ld x2 r1_2)⟩]

/-- The store covers the buffer. -/
theorem cover1_3 (p0 : Vec F S512x512 .f32) (y : S512x512.Idx) :
    ∃ pc ∈ ([⟨r1_3, p0⟩] : List (View.Piece (Elt F) S512x512 .f32)), y ∈ pc.1.set :=
  View.cover_of_tiled [⟨r1_3, p0⟩] S512x512.size (by rfl) y

/-! ## The body's triple -/

set_option maxHeartbeats 1000000 in
/-- The kernel body on whole staging buffers, the inputs' at known contents and the output's at anything, runs to a
    state holding the inputs' as they were and the output's at `out1_3` of the inputs'. -/
theorem sound_kernel1 (c : Dev nD) (E : Set ℕ) (i : grid1.Coords) (arg0 : Memref sig .tc .vmem S64x512 .f32) (harg0 : arg0.IsWhole) (arg1 : Memref sig .tc .vmem S64x4096 .f32) (harg1 : arg1.IsWhole) (arg2 : Memref sig .tc .vmem S512x4096 .f32) (harg2 : arg2.IsWhole) (arg3 : Memref sig .tc .vmem S512x512 .f32) (harg3 : arg3.IsWhole)
    (x0 : Vec F S64x512 .f32) (x1 : Vec F S64x4096 .f32) (x2 : Vec F S512x4096 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t`
    each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole program as a run: the weights stacked, the projection region, the three row slices, the attention region.

  The buffer contents at each boundary between these four items are folded from the launch memory: a stretch of host
  operations applies its operations; a region leaves each of its arrays at what the pipeline's write-backs leave and
  every other buffer as it found it. Every argument array is read back through the fold to its launch contents (no
  host operation writes one, and a region only reads them), and at the end every unscoped buffer holds the last
  boundary's contents — in particular the result array holds what the attention region's write-backs leave.
-/
import proofs.«144916_j9148280341193_2_alg».proof.Proof.Gen.KernelIdeal.Launch
import proofs.«144916_j9148280341193_2_alg».proof.Proof.Gen.KernelIdeal.Skeleton
import proofs.«144916_j9148280341193_2_alg».proof.Proof.Gen.KernelIdeal.Points
import proofs.«144916_j9148280341193_2_alg».proof.Proof.KIRegion0
import proofs.«144916_j9148280341193_2_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the weights are stacked (the projection region's entry). -/
abbrev W1 : Dev nD → Valuation τ sig (Elt F) := fun c => StableHlo.after hostOps0 (W0 m ρ c)
/-- The same read at the core's references. -/
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three slices (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches leave alone -/

/-- Stacking the weights writes only the stacked matrix. -/
theorem keep0 (W : Valuation τ sig (Elt F)) (b : Ref sig .tc) (hb : b ≠ main_v0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

/-- The slices write only the three projections. -/
theorem keep1 (W : Valuation τ sig (Elt F)) (b : Ref sig .tc) (h2 : b ≠ main_v2) (h3 : b ≠ main_v3) (h4 : b ≠ main_v4) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.unary_writes, Finset.mem_singleton]
    exact ⟨StableHlo.devRef_ne_of_ne h2, StableHlo.devRef_ne_of_ne h3, StableHlo.devRef_ne_of_ne h4⟩))

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := keep1 _ main_arg0 (by decide) (by decide) (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := keep0 _ main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := keep1 _ main_arg1 (by decide) (by decide) (by decide)
    _ = W1 m ρ c (Proc.devRef .tc main_arg1) := W2_of_ne m ρ c main_arg1 (by decide)
    _ = W0 m ρ c (Proc.devRef .tc main_arg1) := keep0 _ main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := keep1 _ main_arg2 (by decide) (by decide) (by decide)
    _ = W1 m ρ c (Proc.devRef .tc main_arg2) := W2_of_ne m ρ c main_arg2 (by decide)
    _ = W0 m ρ c (Proc.devRef .tc main_arg2) := keep0 _ main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := keep1 _ main_arg3 (by decide) (by decide) (by decide)
    _ = W1 m ρ c (Proc.devRef .tc main_arg3) := W2_of_ne m ρ c main_arg3 (by decide)
    _ = W0 m ρ c (Proc.devRef .tc main_arg3) := keep0 _ main_arg3 (by decide)
    _ = m ((c : Thread nD τ).loc main_arg3) := rfl

/-- The result array ends at what the attention region's write-backs leave. -/
theorem W4_main_v5 (c : Dev nD) : W4 m ρ c (Proc.devRef .tc main_v5) = (dat1 (V3 m ρ) c).arrAt 3 cfg1.N :=
  W4_arr m ρ c 3

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program terminates, nothing faulting, and
    in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The same run with the result array named: it ends at what the attention region's write-backs leave. -/
theorem run_out : θ_run defs (onTc (τ := τ) (main (F := F))) ⟨m, fun _ => 0, ρ⟩ (fun r => ∀ c : Dev nD,
      r.2.mem ((c.tc : Thread nD τ).loc main_v5) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W4_main_v5 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.Spec.lean ====
/-
  Single-head self-attention over 4096 positions, as one function of the four argument arrays.

  With X a 512 x 4096 matrix of features (one column per position) and weight matrices Wk, Wq (64 x 512) and
  Wv (512 x 512), put K = Wk X, Q = Wq X (64 x 4096) and V = Wv X (512 x 4096). The score of position j for
  position i is s(i, j) = sum_d K(d, i) Q(d, j). Row i of the result is the softmax-weighted mean of the columns of V:

      out(i, c) = ( sum_j exp(s(i, j) - m_i) V(c, j) ) / ( sum_j exp(s(i, j) - m_i) ),   m_i = max_j s(i, j),

  the maximum taken as the fold of max over j from the bottom element, the values extended reals throughout.
-/
import Idealize.ShloMosaic.PureOps.Ideal
import Idealize.ShloMosaic.Lib.ValueIdx

noncomputable section

namespace Cert.Spec

open Idealize.ShloMosaic Idealize.ShloMosaic.ValueIdx

/-- The shapes of the arguments and of the result. -/
abbrev SX : Shape := ⟨2, ![512, 4096]⟩
abbrev SKQ : Shape := ⟨2, ![64, 512]⟩
abbrev SV : Shape := ⟨2, ![512, 512]⟩
abbrev SO : Shape := ⟨2, ![4096, 512]⟩

/-- One softmax-weighted mean: for scores `s` and values `v` over the 4096 positions,
    (sum_j exp(s j - m) v j) / (sum_j exp(s j - m)) with m the fold of max over the scores from the bottom element. -/
def softRow (s v : Fin 4096 → EReal) : EReal :=
  Ideal.div (∑ j : Fin 4096, Ideal.exp (s j - (Finset.univ : Finset (Fin 4096)).fold max (⊥ : EReal) s) * v j)
    (∑ j : Fin 4096, Ideal.exp (s j - (Finset.univ : Finset (Fin 4096)).fold max (⊥ : EReal) s))

/-- A 1x1 projection: entry (r, n) of W X for a weight matrix with 512 columns. -/
def proj {R : ℕ} (w : (⟨2, ![R, 512]⟩ : Shape).Idx → EReal) (x : SX.Idx → EReal) (r : Fin R) (n : Fin 4096) : EReal :=
  ∑ e : Fin 512, w (ix2 r e) * x (ix2 e n)

/-- The score of position `j` for position `i`: the inner product of column `i` of K and column `j` of Q. -/
def score (x : SX.Idx → EReal) (wk wq : SKQ.Idx → EReal) (i j : Fin 4096) : EReal :=
  ∑ d : Fin 64, proj wk x d i * proj wq x d j

/-- Entry (i, c) of the attention output. -/
def attnAt (x : SX.Idx → EReal) (wk wq : SKQ.Idx → EReal) (wv : SV.Idx → EReal) (i : Fin 4096) (c : Fin 512) : EReal :=
  softRow (fun j => score x wk wq i j) (fun j => proj wv x c j)

/-- The attention output as an array. -/
def attn (x : SX.Idx → EReal) (wk wq : SKQ.Idx → EReal) (wv : SV.Idx → EReal) : SO.Idx → EReal :=
  fun o => attnAt x wk wq wv (o 0) (o 1)

theorem attn_ix2 (x : SX.Idx → EReal) (wk wq : SKQ.Idx → EReal) (wv : SV.Idx → EReal) (i : Fin 4096) (c : Fin 512) :
    attn x wk wq wv (ix2 i c) = attnAt x wk wq wv i c := rfl

end Cert.Spec

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDotRhsT.lean ====
/-
  A matrix product with the right operand transposed, at the ideal values, read at an index.
  For the dimension numbers of an M×K by N×K product (`DotDims.transposedRhs M K N`: both operands contracted on their
  last axis, no batch axis) the kernel's `tpu.matmul` into a zero accumulator is, at the output index (a, b), the sum
  over k < K of l(a, k) · r(b, k) on the extended reals.
-/
import Idealize.ShloMosaic.PureOps.Ideal.Laws
import Idealize.ShloMosaic.Lib.ValueIdx

noncomputable section

namespace Cert.LibDotRhsT

open Idealize.ShloMosaic Idealize.ShloMosaic.ValueIdx

variable (M K N : Nat)

/-- The left operand's row is the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- The left operand's column is the contraction index. -/
theorem lhs1 (i : (⟨2, ![M, N]⟩ : Shape).Idx) (q : (DotDims.transposedRhs M K N).contr.Idx) :
    ((DotDims.transposedRhs M K N).lhsIdx i q 1).val
      = (q ⟨0, by rw [(DotDims.transposedRhs M K N).rank_contr]; exact Nat.one_pos⟩).val :=
  (DotDims.transposedRhs M K N).lhsIdx_val_of_single rfl i q

/-- The right operand's row is the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- The right operand's column is the contraction index. -/
theorem rhs1 (i : (⟨2, ![M, N]⟩ : Shape).Idx) (q : (DotDims.transposedRhs M K N).contr.Idx) :
    ((DotDims.transposedRhs M K N).rhsIdx i q 1).val
      = (q ⟨0, by rw [(DotDims.transposedRhs M K N).rank_contr]; exact Nat.one_pos⟩).val :=
  (DotDims.transposedRhs M K N).rhsIdx_val_of_single rfl i q

/-- The contraction's sum, re-indexed by k < K. -/
theorem sum_rhsT {φ₁ φ₂ : FTy} (l : FVec Ideal ⟨2, ![M, K]⟩ φ₁) (r : FVec Ideal ⟨2, ![N, K]⟩ φ₂) (j : (⟨2, ![M, N]⟩ : Shape).Idx) :
    ∑ k : (DotDims.transposedRhs M K N).contr.Idx,
        l ((DotDims.transposedRhs M K N).lhsIdx j k) * r ((DotDims.transposedRhs M K N).rhsIdx j k)
      = ∑ k : Fin K, l (ix2 (j 0) k) * r (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs0 M K N _ _
      | ⟨1, _⟩ => exact (lhs1 M K N _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs0 M K N _ _
      | ⟨1, _⟩ => exact (rhs1 M K N _ _).trans hk)
  exact congr (congrArg HMul.hMul (congrArg l el)) (congrArg r er)

/-- The kernel's product into a zero accumulator, at an index. -/
theorem matmul_rhsT {φ₁ φ₂ : FTy} (prec : Option ContractPrecision) (l : FVec Ideal ⟨2, ![M, K]⟩ φ₁) (r : FVec Ideal ⟨2, ![N, K]⟩ φ₂)
    (j : (⟨2, ![M, N]⟩ : Shape).Idx) :
    matmul (F := Ideal) (DotDims.transposedRhs M K N) prec l r (constant ⟨2, ![M, N]⟩ .f32 0x00000000#32) j
      = ∑ k : Fin K, l (ix2 (j 0) k) * r (ix2 (j 1) k) :=
  (Ideal.matmul_constant_zero_apply (DotDims.transposedRhs M K N) prec l r j).trans (sum_rhsT M K N l r j)

end Cert.LibDotRhsT

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.PayAttn.lean ====
/-
  The attention kernel's arithmetic, read at an index.
  With s(i, j) = sum over d < 64 of v0(d, i) * v2(d, j) the scores (a product contracted on the first axis of both operands,
  accumulated from zero), m_i the maximum of row i of s taken from minus infinity, and e(i, j) = exp(s(i, j) - m_i), the
  region stores at (i, c) the quotient of sum_j e(i, j) * v4(c, j) (a product contracted on the last axis of both operands)
  by sum_j e(i, j) (a row sum, made a column and repeated along the row). That is the softmax-weighted mean of the
  specification for the scores s(i, .) and the values v4(c, .).
-/
import proofs.«144916_j9148280341193_2_alg».proof.Proof.Gen.KernelIdeal.Skeleton
import proofs.«144916_j9148280341193_2_alg».proof.Proof.Spec
import proofs.«144916_j9148280341193_2_alg».proof.Proof.LibPlainDot
import proofs.«144916_j9148280341193_2_alg».proof.Proof.LibDotRhsT
import proofs.«144916_j9148280341193_2_alg».proof.Proof.LibRowReduce
import proofs.«144916_j9148280341193_2_alg».proof.Proof.LibColumn
import Idealize.ShloMosaic.Lib.Pipeline.Value

noncomputable section

namespace Cert.KernelIdeal.Pay

open Idealize.ShloMosaic Idealize.ShloMosaic.ValueIdx

/-- The dimension numbers of the score product: both operands contracted on their first axis. -/
abbrev dS := Cert.KernelIdeal.dot_S64x512_S64x4096_S512x4096_0_0_1_1_n_n

theorem dS_rank : dS.contr.rank = 1 := rfl

/-- The left operand's row is the contraction index. -/
theorem sc_lhs0 (i : Cert.KernelIdeal.S512x4096.Idx) (q : dS.contr.Idx) :
    (dS.lhsIdx i q 0).val = (q ⟨0, by rw [dS.rank_contr]; exact Nat.one_pos⟩).val :=
  dS.lhsIdx_val_of_single rfl i q

/-- The left operand's column is the output's row. -/
theorem sc_lhs1 (i : Cert.KernelIdeal.S512x4096.Idx) (q : dS.contr.Idx) :
    (dS.lhsIdx i q 1).val = (i 0).val := by
  unfold DotDims.lhsIdx
  rw [dif_neg (show ¬(1 : Fin 2) ∈ dS.lhsBatch by simp [dS, Cert.KernelIdeal.dot_S64x512_S64x4096_S512x4096_0_0_1_1_n_n]),
    dif_pos (show (1 : Fin 2) ∈ dS.lhsNonContracting by simp [dS, Cert.KernelIdeal.dot_S64x512_S64x4096_S512x4096_0_0_1_1_n_n])]
  rfl

/-- The right operand's row is the contraction index. -/
theorem sc_rhs0 (i : Cert.KernelIdeal.S512x4096.Idx) (q : dS.contr.Idx) :
    (dS.rhsIdx i q 0).val = (q ⟨0, by rw [dS.rank_contr]; exact Nat.one_pos⟩).val :=
  dS.rhsIdx_val_of_single rfl i q

/-- The right operand's column is the output's column. -/
theorem sc_rhs1 (i : Cert.KernelIdeal.S512x4096.Idx) (q : dS.contr.Idx) :
    (dS.rhsIdx i q 1).val = (i 1).val := by
  unfold DotDims.rhsIdx
  rw [dif_neg (show ¬(1 : Fin 2) ∈ dS.rhsBatch by simp [dS, Cert.KernelIdeal.dot_S64x512_S64x4096_S512x4096_0_0_1_1_n_n]),
    dif_pos (show (1 : Fin 2) ∈ dS.rhsNonContracting by simp [dS, Cert.KernelIdeal.dot_S64x512_S64x4096_S512x4096_0_0_1_1_n_n])]
  rfl

/-- The score product accumulated from zero, at (i, j): the inner product of column i of the left operand with column j
    of the right operand. -/
theorem scores_apply {φ₁ φ₂ : FTy} (prec : Option ContractPrecision) (l : FVec Ideal Cert.KernelIdeal.S64x512 φ₁)
    (r : FVec Ideal Cert.KernelIdeal.S64x4096 φ₂) (i : Fin 512) (j : Fin 4096) :
    matmul (F := Ideal) dS prec l r (constant Cert.KernelIdeal.S512x4096 .f32 0x00000000#32) (ix2 i j)
      = ∑ d : Fin 64, l (ix2 d i) * r (ix2 d j) := by
  refine (Ideal.matmul_constant_zero_apply dS prec l r (ix2 i j)).trans ?_
  rw [← Equiv.sum_comp (contrEquiv1 dS 64 rfl rfl).symm]
  refine Finset.sum_congr rfl fun k _ => ?_
  have hk := contrEquiv1_symm_val dS 64 rfl rfl k
  have el : dS.lhsIdx (ix2 i j) ((contrEquiv1 dS 64 rfl rfl).symm k) = ix2 k i :=
    funext fun a => Fin.ext (by
      match a with
      | ⟨0, _⟩ => exact (sc_lhs0 _ _).trans hk
      | ⟨1, _⟩ => exact sc_lhs1 _ _)
  have er : dS.rhsIdx (ix2 i j) ((contrEquiv1 dS 64 rfl rfl).symm k) = ix2 k j :=
    funext fun a => Fin.ext (by
      match a with
      | ⟨0, _⟩ => exact (sc_rhs0 _ _).trans hk
      | ⟨1, _⟩ => exact sc_rhs1 _ _)
  exact congr (congrArg HMul.hMul (congrArg l el)) (congrArg r er)

/-- The pattern 0xFF800000 denotes minus infinity, the bottom element. -/
theorem ofBits_neg_inf : FloatOps.ofBits (F := Ideal) .f32 0xFF800000#32 = (⊥ : EReal) := by
  simp [Ideal.ofBits, Ideal.ieee]

/-- A quotient of arrays at an index is the quotient of the entries. -/
theorem divf_apply {s : Shape} (x y : FVec Ideal s .f32) (j : s.Idx) : divf x y j = Ideal.div (x j) (y j) := rfl

/-- The exponent stage at (i, j): for a score matrix s, exp (s(i, j) - m_i) with m_i the fold of max over row i from the
    bottom element. The row maximum reaches the entry through a cast of the vector of maxima to a column and a broadcast
    of that column along the rows. -/
theorem expo_apply (s : FVec Ideal Cert.KernelIdeal.S512x4096 .f32)
    (hr : Cert.KernelIdeal.S512x4096.Reduces [1] Cert.KernelIdeal.S512) (hφ : FKind.Formats FTy.f32)
    (hacc : (0xFF800000#32 : BitVec FTy.f32.bits) = FKind.maximumf.neutral .f32 hφ)
    (hsc : Cert.KernelIdeal.S512.ShapeCasts Cert.KernelIdeal.S512x1)
    (hbc : Cert.KernelIdeal.S512x1.Broadcasts Cert.KernelIdeal.S512x4096) (i : Fin 512) (j : Fin 4096) :
    exp (subf s (broadcastTo Cert.KernelIdeal.S512x4096
        (shapeCast Cert.KernelIdeal.S512x1
          (multiReduction (F := Ideal) .maximumf [1] Cert.KernelIdeal.S512 s 0xFF800000#32 hr hφ hacc) hsc) hbc)) (ix2 i j)
      = Ideal.exp (s (ix2 i j) - (Finset.univ : Finset (Fin 4096)).fold max (⊥ : EReal) (fun k => s (ix2 i k))) := by
  show Ideal.exp (s (ix2 i j) - _) = _
  refine congrArg (fun m => Ideal.exp (s (ix2 i j) - m)) ?_
  refine (Cert.LibColumn.broadcastTo_a1_ab_apply _ _ i j).trans ?_
  refine (Cert.LibColumn.shapeCast_a_a1_apply _ _ i 0).trans ?_
  refine (Cert.LibRowReduce.rowMax_apply s _ _ _ _ i).trans ?_
  rw [ofBits_neg_inf]

/-- Entry (i, c) of the attention kernel's stored block: the softmax-weighted mean, over the 4096 positions j, of the
    values v4(c, j), the score of j being the inner product of column i of v0 with column j of v2.
    The numerator is a product of the exponent matrix with the transposed values, the denominator the row sums of the
    exponent matrix carried to the entry through a column cast and a broadcast; reshapes to the same shape and the
    narrowing of the element type change nothing on the extended reals. -/
theorem attn_pay (v0 : Vec Ideal Cert.KernelIdeal.S64x512 .f32) (v2 : Vec Ideal Cert.KernelIdeal.S64x4096 .f32)
    (v4 : Vec Ideal Cert.KernelIdeal.S512x4096 .f32) (i c : Fin 512) :
    Cert.KernelIdeal.Gen.k1_pay1 (F := Ideal) v0 v2 v4 (ix2 i c)
      = Cert.Spec.softRow (fun j : Fin 4096 => ∑ d : Fin 64, v0 (ix2 d i) * v2 (ix2 d j)) (fun j : Fin 4096 => v4 (ix2 c j)) := by
  unfold Cert.KernelIdeal.Gen.k1_pay1
  dsimp only
  rw [shapeCast_self, shapeCast_self, shapeCast_self]
  generalize hs : matmul (F := Ideal) dS (some ContractPrecision.fp32) v0 v2
    (constant Cert.KernelIdeal.S512x4096 .f32 0x00000000#32) = s
  have hfun : (fun j : Fin 4096 => ∑ d : Fin 64, v0 (ix2 d i) * v2 (ix2 d j)) = fun j => s (ix2 i j) :=
    funext fun j => by rw [← hs]; exact (scores_apply (some ContractPrecision.fp32) v0 v2 i j).symm
  rw [hfun]
  unfold Cert.Spec.softRow
  refine (divf_apply _ _ _).trans ?_
  refine congr (congrArg Ideal.div ?_) ?_
  · refine (Cert.LibDotRhsT.matmul_rhsT 512 4096 512 none (φ₁ := .bf16) (φ₂ := .bf16) _ _ (ix2 i c)).trans ?_
    exact Finset.sum_congr rfl fun j _ => congrArg (· * v4 (ix2 c j)) (expo_apply s _ _ _ _ _ i j)
  · refine (Cert.LibColumn.broadcastTo_a1_ab_apply _ _ i c).trans ?_
    refine (Cert.LibColumn.shapeCast_a_a1_apply _ _ i 0).trans ?_
    refine (Cert.LibRowReduce.rowSum_apply _ _ _ _ _ i).trans ?_
    exact Finset.sum_congr rfl fun j _ => expo_apply s _ _ _ _ _ i j

end Cert.KernelIdeal.Pay

end
-- ==== Proof.KIValue1.lean ====
/-
  What the attention region leaves in its output array.

  Grid point t of the region handles query positions 512 t … 512 t + 511: from the key columns of those positions and
  the whole query and value projections it stores, as block t of the 4096 x 512 output, the softmax-weighted means
  of the value rows. The eight blocks tile the output, so after the region entry (i, c) of the output array is the
  softmax-weighted mean over all positions j of V(c, j), the scores of row i being the inner products of column i of K
  with the columns of Q — for the projections K, Q, V as the region finds them.
-/
import proofs.«144916_j9148280341193_2_alg».proof.Proof.KIRegion1
import proofs.«144916_j9148280341193_2_alg».proof.Proof.PayAttn
import proofs.«144916_j9148280341193_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- Attention from given projections: entry (i, c) is the softmax-weighted mean of row c of the values, the scores of
    row i the inner products of column i of the keys with the columns of the queries. -/
def attnOf (k q : (⟨2, ![64, 4096]⟩ : Shape).Idx → EReal) (v : (⟨2, ![512, 4096]⟩ : Shape).Idx → EReal) :
    (⟨2, ![4096, 512]⟩ : Shape).Idx → EReal :=
  fun o => Cert.Spec.softRow (fun j : Fin 4096 => ∑ d : Fin 64, k (ix2 d (o 0)) * q (ix2 d j)) (fun j : Fin 4096 => v (ix2 (o 1) j))

/-- The attention output from the three projections as the region finds them. -/
def out1 (c : Dev nD) : S4096x512.Idx → EReal := attnOf (V c main_v2) (V c main_v3) (V c main_v4)

/-- The block indices over the grid: the keys' window is at block (0, t), the queries' and the values' stay at
    block (0, 0), the output's is at block (t, 0). -/
theorem idx_facts1 : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the attention output. -/
theorem flushed1_eq (c : Dev nD) (t : Fin cfg1.N) :
    (dat1 V c).flushed 3 t = ((cfg1.win 3).blk t).view.read (Elt Ideal) (out1 V c) := by
  show (cfg1.win 3).cut (grid1.coords t) ((dat1 V c).after 3 t) = _
  rw [after1_3]
  unfold out1_3
  rw [View.canon_unit_zero hz1]
  simp only [View.ld_unit_zero (S := S64x512) hz1, View.ld_unit_zero (S := S64x4096) hz1, View.ld_unit_zero (S := S512x4096) hz1]
  obtain ⟨e0, e1, e2, e3, e4, e5, e6, e7⟩ := idx_facts1 t
  funext j
  obtain ⟨i, c', rfl⟩ : ∃ (i : Fin 512) (c' : Fin 512), j = ix2 i c' := ⟨j 0, j 1, eq_ix2 j⟩
  refine (Cert.KernelIdeal.Pay.attn_pay (iblk1 V c 0 t) (iblk1 V c 1 t) (iblk1 V c 2 t) i c').trans ?_
  show _ = out1 V c (((cfg1.win 3).blk t).view.emb (ix2 i c'))
  unfold out1 attnOf
  refine congr (congrArg Cert.Spec.softRow (funext fun j => Finset.sum_congr rfl fun d _ => ?_)) (funext fun j => ?_)
  · congr 1
    · show V c main_v2 (((cfg1.win 0).blk t).view.emb (ix2 d i)) = V c main_v2 _
      congr 1; funext a; apply Fin.ext
      match a with
      | ⟨0, _⟩ => show win1_0.index t (0 : Fin 2) * 64 + 1 * d.val = d.val; omega
      | ⟨1, _⟩ => show win1_0.index t (1 : Fin 2) * 512 + 1 * i.val = win1_3.index t (0 : Fin 2) * 512 + 1 * i.val; omega
    · show V c main_v3 (((cfg1.win 1).blk t).view.emb (ix2 d j)) = V c main_v3 _
      congr 1; funext a; apply Fin.ext
      match a with
      | ⟨0, _⟩ => show win1_1.index t (0 : Fin 2) * 64 + 1 * d.val = d.val; omega
      | ⟨1, _⟩ => show win1_1.index t (1 : Fin 2) * 4096 + 1 * j.val = j.val; omega
  · show V c main_v4 (((cfg1.win 2).blk t).view.emb (ix2 c' j)) = V c main_v4 _
    congr 1; funext a; apply Fin.ext
    match a with
    | ⟨0, _⟩ => show win1_2.index t (0 : Fin 2) * 512 + 1 * c'.val = win1_3.index t (1 : Fin 2) * 512 + 1 * c'.val; omega
    | ⟨1, _⟩ => show win1_2.index t (1 : Fin 2) * 4096 + 1 * j.val = j.val; omega

/-- An index of the output is in point `t`'s block iff each coordinate is in the block's range on its axis. -/
theorem mem_blk1 (t : Fin cfg1.N) (i : S4096x512.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v5).slice (win1_3.rect t)).set ↔ _
  rw [View.set_slice_whole, Rect.mem_set_unit]
  exact Iff.rfl

/-- Every index of the output lies in the block of the point its row falls in. -/
theorem cover1 (i : S4096x512.Idx) : ∃ t : Fin cfg1.N, (cfg1.win 3).flush t = true ∧ i ∈ ((cfg1.win 3).blk t).view.set := by
  have hi0 : (i 0).val < 4096 := (i 0).isLt
  have hi1 : (i 1).val < 512 := (i 1).isLt
  have hN : cfg1.N = 8 := N_1
  let t : Fin cfg1.N := ⟨(i 0).val / 512, by rw [hN]; omega⟩
  obtain ⟨e0, e1, e2, e3, e4, e5, e6, e7⟩ := idx_facts1 t
  have ht : t.val = (i 0).val / 512 := rfl
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- After the region the output array is the attention output of the projections it was entered with. -/
theorem final1 (c : Dev nD) : (dat1 V c).arrAt 3 cfg1.N = out1 V c :=
  (dat1 V c).arrAt_eq_of_cover 3 (out1 V c) (fun t _ => flushed1_eq V c t) (cover1)

end Cert.KernelIdeal.Hand

end
-- ==== Proof.PayProj.lean ====
/-
  The projection kernel's arithmetic, read at an index.
  The region's stored value is a plain 640 x 512 by 512 x 1024 matrix product accumulated from zero. Its operands are the
  two loaded blocks after a reshape to their own shape and a narrowing of the element type, both of which change nothing on
  the extended reals. Hence the entry (r, n) is the sum over k < 512 of v0(r, k) * v3(k, n).
-/
import proofs.«144916_j9148280341193_2_alg».proof.Proof.Gen.KernelIdeal.Skeleton
import proofs.«144916_j9148280341193_2_alg».proof.Proof.LibPlainDot
import Idealize.ShloMosaic.Lib.Pipeline.Value

noncomputable section

namespace Cert.KernelIdeal.Pay

open Idealize.ShloMosaic Idealize.ShloMosaic.ValueIdx

variable [Cert.KernelIdeal.Facts₀]

/-- The dimension numbers of the projection product are those of a plain M x K by K x N product. -/
theorem dot_proj_eq : Cert.KernelIdeal.dot_S640x512_S512x1024_S640x1024_1_0_0_1_n_n = DotDims.plain 640 512 1024 := rfl

/-- Entry (r, n) of the projection kernel's stored block: the inner product of row r of the weights with column n of the
    features. -/
theorem proj_pay (v0 : Vec Ideal Cert.KernelIdeal.S640x512 .f32) (v3 : Vec Ideal Cert.KernelIdeal.S512x1024 .f32)
    (r : Fin 640) (n : Fin 1024) :
    Cert.KernelIdeal.Gen.k0_pay1 (F := Ideal) v0 v3 (ix2 r n) = ∑ k : Fin 512, v0 (ix2 r k) * v3 (ix2 k n) := by
  unfold Cert.KernelIdeal.Gen.k0_pay1
  rw [shapeCast_self]
  exact Cert.LibPlainDot.matmul_plain 640 512 1024 none (φ₁ := .bf16) (φ₂ := .bf16) v0 v3 (ix2 r n)

end Cert.KernelIdeal.Pay

end
-- ==== Proof.KIValue0.lean ====
/-
  What the projection region leaves in its output array.

  Grid point t of the region stores the 640 x 1024 product of the stacked weights with columns 1024 t … 1024 t + 1023 of
  the features as block t of the 640 x 4096 output. The four blocks tile the output, so after the region the output
  array is the whole product: entry (r, n) is the sum over k < 512 of W(r, k) X(k, n), for the stacked weights W and the
  features X as the region finds them.
-/
import proofs.«144916_j9148280341193_2_alg».proof.Proof.KIRegion0
import proofs.«144916_j9148280341193_2_alg».proof.Proof.PayProj
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A matrix product over the extended reals, entry (r, n): the sum over k of W(r, k) X(k, n). -/
def mm {M K N : ℕ} (w : (⟨2, ![M, K]⟩ : Shape).Idx → EReal) (x : (⟨2, ![K, N]⟩ : Shape).Idx → EReal) :
    (⟨2, ![M, N]⟩ : Shape).Idx → EReal :=
  fun i => ∑ k : Fin K, w (ix2 (i 0) k) * x (ix2 k (i 1))

/-- The product of the stacked weights and the features as the region finds them. -/
def prod0 (c : Dev nD) : S640x4096.Idx → EReal :=
  mm (M := 640) (K := 512) (N := 4096) (V c main_v0) (V c main_arg0)

/-- The block indices over the grid: the weights' window stays at block (0, 0); the features' and the output's
    windows are at block (0, t). -/
theorem idx_facts0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- What point `t` writes back is block `t` of the product. -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz]
  simp only [View.ld_unit_zero (S := S640x512) hz, View.ld_unit_zero (S := S512x1024) hz]
  obtain ⟨e0, e1, e2, e3, e4, e5⟩ := idx_facts0 t
  funext j
  obtain ⟨r, n, rfl⟩ : ∃ (r : Fin 640) (n : Fin 1024), j = ix2 r n := ⟨j 0, j 1, eq_ix2 j⟩
  refine (Cert.KernelIdeal.Pay.proj_pay (iblk0 V c 0 t) (iblk0 V c 1 t) r n).trans ?_
  show _ = prod0 V c (((cfg0.win 2).blk t).view.emb (ix2 r n))
  unfold prod0 mm
  refine Finset.sum_congr rfl fun k _ => ?_
  congr 1
  · show V c main_v0 (((cfg0.win 0).blk t).view.emb (ix2 r k)) = V c main_v0 _
    congr 1; funext a; apply Fin.ext
    match a with
    | ⟨0, _⟩ => show win0_0.index t (0 : Fin 2) * 640 + 1 * r.val = win0_2.index t (0 : Fin 2) * 640 + 1 * r.val; omega
    | ⟨1, _⟩ => show win0_0.index t (1 : Fin 2) * 512 + 1 * k.val = k.val; omega
  · show V c main_arg0 (((cfg0.win 1).blk t).view.emb (ix2 k n)) = V c main_arg0 _
    congr 1; funext a; apply Fin.ext
    match a with
    | ⟨0, _⟩ => show win0_1.index t (0 : Fin 2) * 512 + 1 * k.val = k.val; omega
    | ⟨1, _⟩ => show win0_1.index t (1 : Fin 2) * 1024 + 1 * n.val = win0_2.index t (1 : Fin 2) * 1024 + 1 * n.val; omega

/-- An index of the output is in point `t`'s block iff each coordinate is in the block's range on its axis. -/
theorem mem_blk0 (t : Fin cfg0.N) (i : S640x4096.Idx) :
    i ∈ ((cfg0.win 2).blk t).view.set ↔ ∀ a : Fin 2, win0_2.index t a * S640x1024.size a ≤ (i a).val ∧ (i a).val < win0_2.index t a * S640x1024.size a + S640x1024.size a := by
  show i ∈ ((View.whole main_v1).slice (win0_2.rect t)).set ↔ _
  rw [View.set_slice_whole, Rect.mem_set_unit]
  exact Iff.rfl

/-- Every index of the output lies in the block of the point its column falls in. -/
theorem cover0 (i : S640x4096.Idx) : ∃ t : Fin cfg0.N, (cfg0.win 2).flush t = true ∧ i ∈ ((cfg0.win 2).blk t).view.set := by
  have hi0 : (i 0).val < 640 := (i 0).isLt
  have hi1 : (i 1).val < 4096 := (i 1).isLt
  have hN : cfg0.N = 4 := N_0
  let t : Fin cfg0.N := ⟨(i 1).val / 1024, by rw [hN]; omega⟩
  obtain ⟨e0, e1, e2, e3, e4, e5⟩ := idx_facts0 t
  have ht : t.val = (i 1).val / 1024 := rfl
  refine ⟨t, flush0_2 t, ?_⟩
  rw [mem_blk0]
  intro a
  match a with
  | ⟨0, _⟩ => show win0_2.index t (0 : Fin 2) * 640 ≤ (i 0).val ∧ (i 0).val < win0_2.index t (0 : Fin 2) * 640 + 640; omega
  | ⟨1, _⟩ => show win0_2.index t (1 : Fin 2) * 1024 ≤ (i 1).val ∧ (i 1).val < win0_2.index t (1 : Fin 2) * 1024 + 1024; omega

/-- After the region the output array is the whole product. -/
theorem final0 (c : Dev nD) : (dat0 V c).arrAt 2 cfg0.N = prod0 V c :=
  (dat0 V c).arrAt_eq_of_cover 2 (prod0 V c) (fun t _ => flushed0_eq V c t) (cover0)

end Cert.KernelIdeal.Hand

end
-- ==== Proof.KIHost.lean ====
/-
  The projections the attention region is entered with are the specification's projections of the launch arguments.

  Before the first region the three weight matrices are stacked, Wk on rows 0 … 63, Wq on rows 64 … 127 and Wv on rows
  128 … 639 of a 640 x 512 matrix W. The first region leaves the product W X in its output array, X the features. The
  three projections are then cut out of the product as its rows 0 … 63, 64 … 127 and 128 … 639. Row (offset + d) of W X
  is the sum over e of W(offset + d, e) X(e, n), and row (offset + d) of the stack is row d of the piece that starts at
  that offset; the features are still the launch argument, no step before the attention region having written them.
-/
import proofs.«144916_j9148280341193_2_alg».proof.Proof.KIRun
import proofs.«144916_j9148280341193_2_alg».proof.Proof.KIValue0
import proofs.«144916_j9148280341193_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-! ## Rows of the stacked weights -/

section Pure
variable {α : Type}

/-- Rows 0 … 63 of the stack are the rows of the first piece. -/
theorem stack_k (xk xq : S64x512.Idx → α) (xv : S512x512.Idx → α)
    (h : Shape.Concatenates [S64x512, S64x512, S512x512] S640x512 0) (d : Fin 64) (e : Fin 512) :
    concatenate S640x512 0 [⟨S64x512, xk⟩, ⟨S64x512, xq⟩, ⟨S512x512, xv⟩] h
        (ix2 (⟨d.val, by have := d.isLt; omega⟩ : Fin 640) e) = xk (ix2 d e) :=
  concatenate_apply_piece (0 : Fin S640x512.rank) [⟨S64x512, xk⟩, ⟨S64x512, xq⟩, ⟨S512x512, xv⟩] h _
    0 (by show (0 : ℕ) < 3; decide) S64x512 xk rfl rfl 0 rfl (ix2 d e)
    (by intro b hb
        match b, hb with
        | ⟨0, _⟩, hb => exact absurd rfl hb
        | ⟨1, _⟩, _ => rfl)
    (by show 0 + d.val = d.val; omega)

/-- Rows 64 … 127 of the stack are the rows of the second piece. -/
theorem stack_q (xk xq : S64x512.Idx → α) (xv : S512x512.Idx → α)
    (h : Shape.Concatenates [S64x512, S64x512, S512x512] S640x512 0) (d : Fin 64) (e : Fin 512) :
    concatenate S640x512 0 [⟨S64x512, xk⟩, ⟨S64x512, xq⟩, ⟨S512x512, xv⟩] h
        (ix2 (⟨64 + d.val, by have := d.isLt; omega⟩ : Fin 640) e) = xq (ix2 d e) :=
  concatenate_apply_piece (0 : Fin S640x512.rank) [⟨S64x512, xk⟩, ⟨S64x512, xq⟩, ⟨S512x512, xv⟩] h _
    1 (by show (1 : ℕ) < 3; decide) S64x512 xq rfl rfl 64 rfl (ix2 d e)
    (by intro b hb
        match b, hb with
        | ⟨0, _⟩, hb => exact absurd rfl hb
        | ⟨1, _⟩, _ => rfl)
    (by show 64 + d.val = 64 + d.val; rfl)

/-- Rows 128 … 639 of the stack are the rows of the third piece. -/
theorem stack_v (xk xq : S64x512.Idx → α) (xv : S512x512.Idx → α)
    (h : Shape.Concatenates [S64x512, S64x512, S512x512] S640x512 0) (r : Fin 512) (e : Fin 512) :
    concatenate S640x512 0 [⟨S64x512, xk⟩, ⟨S64x512, xq⟩, ⟨S512x512, xv⟩] h
        (ix2 (⟨128 + r.val, by have := r.isLt; omega⟩ : Fin 640) e) = xv (ix2 r e) :=
  concatenate_apply_piece (0 : Fin S640x512.rank) [⟨S64x512, xk⟩, ⟨S64x512, xq⟩, ⟨S512x512, xv⟩] h _
    2 (by show (2 : ℕ) < 3; decide) S512x512 xv rfl rfl 128 rfl (ix2 r e)
    (by intro b hb
        match b, hb with
        | ⟨0, _⟩, hb => exact absurd rfl hb
        | ⟨1, _⟩, _ => rfl)
    (by show 128 + r.val = 128 + r.val; rfl)

/-! ## Rows of the three slices -/

/-- The first slice is rows 0 … 63 of the sliced matrix. -/
theorem slice_k (x : S640x4096.Idx → α) (h : S640x4096.Slices ![0, 0] S64x4096) (d : Fin 64) (n : Fin 4096) :
    extractStridedSlice S64x4096 ![0, 0] x h (ix2 d n) = x (ix2 (⟨d.val, by have := d.isLt; omega⟩ : Fin 640) n) :=
  extractStridedSlice_apply ![0, 0] x h (ix2 d n) (ix2 (⟨d.val, by have := d.isLt; omega⟩ : Fin 640) n) (fun a => by
    match a with
    | ⟨0, _⟩ => show d.val = 0 + d.val; omega
    | ⟨1, _⟩ => show n.val = 0 + n.val; omega)

/-- The second slice is rows 64 … 127. -/
theorem slice_q (x : S640x4096.Idx → α) (h : S640x4096.Slices ![64, 0] S64x4096) (d : Fin 64) (n : Fin 4096) :
    extractStridedSlice S64x4096 ![64, 0] x h (ix2 d n) = x (ix2 (⟨64 + d.val, by have := d.isLt; omega⟩ : Fin 640) n) :=
  extractStridedSlice_apply ![64, 0] x h (ix2 d n) (ix2 (⟨64 + d.val, by have := d.isLt; omega⟩ : Fin 640) n) (fun a => by
    match a with
    | ⟨0, _⟩ => show 64 + d.val = 64 + d.val; rfl
    | ⟨1, _⟩ => show n.val = 0 + n.val; omega)

/-- The third slice is rows 128 … 639. -/
theorem slice_v (x : S640x4096.Idx → α) (h : S640x4096.Slices ![128, 0] S512x4096) (r : Fin 512) (n : Fin 4096) :
    extractStridedSlice S512x4096 ![128, 0] x h (ix2 r n) = x (ix2 (⟨128 + r.val, by have := r.isLt; omega⟩ : Fin 640) n) :=
  extractStridedSlice_apply ![128, 0] x h (ix2 r n) (ix2 (⟨128 + r.val, by have := r.isLt; omega⟩ : Fin 640) n) (fun a => by
    match a with
    | ⟨0, _⟩ => show 128 + r.val = 128 + r.val; rfl
    | ⟨1, _⟩ => show n.val = 0 + n.val; omega)

end Pure

/-! ## The boundaries read back to the launch memory -/

variable (m : (ℓ : Loc nD τ sig) → Buf (Elt Ideal) ℓ) (ρ : Dev nD → PrngReg)

/-- The features are the launch argument when the first region is entered. -/
theorem feat_eq (c : Dev nD) :
    V1 (F := Ideal) m ρ c main_arg0 = m ((c.tc : Thread nD τ).loc main_arg0) :=
  (keep0 (W0 (F := Ideal) m ρ c) main_arg0 (by decide)).trans rfl

/-- After the first region its output array holds the product of the stacked weights and the features. -/
theorem out_eq (c : Dev nD) :
    W2 (F := Ideal) m ρ c (Proc.devRef .tc main_v1) = prod0 (V1 (F := Ideal) m ρ) c :=
  (W2_arr (F := Ideal) m ρ c 2).trans (final0 (V1 (F := Ideal) m ρ) c)

/-- Rows 0 … 63 of the stacked weights are the key weights. -/
theorem stack_k_at (c : Dev nD) (d : Fin 64) (e : Fin 512) :
    (V1 (F := Ideal) m ρ c main_v0 : S640x512.Idx → EReal) (ix2 (⟨d.val, by have := d.isLt; omega⟩ : Fin 640) e)
      = (m ((c.tc : Thread nD τ).loc main_arg1) : S64x512.Idx → EReal) (ix2 d e) := by
  show StableHlo.after hostOps0 (W0 (F := Ideal) m ρ c) (Proc.devRef .tc main_v0) _ = _
  after_results
  exact stack_k _ _ _ _ d e

/-- Rows 64 … 127 of the stacked weights are the query weights. -/
theorem stack_q_at (c : Dev nD) (d : Fin 64) (e : Fin 512) :
    (V1 (F := Ideal) m ρ c main_v0 : S640x512.Idx → EReal) (ix2 (⟨64 + d.val, by have := d.isLt; omega⟩ : Fin 640) e)
      = (m ((c.tc : Thread nD τ).loc main_arg2) : S64x512.Idx → EReal) (ix2 d e) := by
  show StableHlo.after hostOps0 (W0 (F := Ideal) m ρ c) (Proc.devRef .tc main_v0) _ = _
  after_results
  exact stack_q _ _ _ _ d e

/-- Rows 128 … 639 of the stacked weights are the value weights. -/
theorem stack_v_at (c : Dev nD) (r : Fin 512) (e : Fin 512) :
    (V1 (F := Ideal) m ρ c main_v0 : S640x512.Idx → EReal) (ix2 (⟨128 + r.val, by have := r.isLt; omega⟩ : Fin 640) e)
      = (m ((c.tc : Thread nD τ).loc main_arg3) : S512x512.Idx → EReal) (ix2 r e) := by
  show StableHlo.after hostOps0 (W0 (F := Ideal) m ρ c) (Proc.devRef .tc main_v0) _ = _
  after_results
  exact stack_v _ _ _ _ r e

/-- The keys the attention region is entered with are rows 0 … 63 of the first region's output. -/
theorem slice_k_at (c : Dev nD) (d : Fin 64) (n : Fin 4096) :
    (V3 (F := Ideal) m ρ c main_v2 : S64x4096.Idx → EReal) (ix2 d n)
      = (W2 (F := Ideal) m ρ c (Proc.devRef .tc main_v1) : S640x4096.Idx → EReal)
          (ix2 (⟨d.val, by have := d.isLt; omega⟩ : Fin 640) n) := by
  show StableHlo.after hostOps1 (W2 (F := Ideal) m ρ c) (Proc.devRef .tc main_v2) _ = _
  after_results
  exact slice_k _ _ d n

/-- The queries are rows 64 … 127. -/
theorem slice_q_at (c : Dev nD) (d : Fin 64) (n : Fin 4096) :
    (V3 (F := Ideal) m ρ c main_v3 : S64x4096.Idx → EReal) (ix2 d n)
      = (W2 (F := Ideal) m ρ c (Proc.devRef .tc main_v1) : S640x4096.Idx → EReal)
          (ix2 (⟨64 + d.val, by have := d.isLt; omega⟩ : Fin 640) n) := by
  show StableHlo.after hostOps1 (W2 (F := Ideal) m ρ c) (Proc.devRef .tc main_v3) _ = _
  after_results
  exact slice_q _ _ d n

/-- The values are rows 128 … 639. -/
theorem slice_v_at (c : Dev nD) (r : Fin 512) (n : Fin 4096) :
    (V3 (F := Ideal) m ρ c main_v4 : S512x4096.Idx → EReal) (ix2 r n)
      = (W2 (F := Ideal) m ρ c (Proc.devRef .tc main_v1) : S640x4096.Idx → EReal)
          (ix2 (⟨128 + r.val, by have := r.isLt; omega⟩ : Fin 640) n) := by
  show StableHlo.after hostOps1 (W2 (F := Ideal) m ρ c) (Proc.devRef .tc main_v4) _ = _
  after_results
  exact slice_v _ _ r n

/-- A matrix of literal extents read at a row and a column. -/
abbrev rd {A B : ℕ} (f : (⟨2, ![A, B]⟩ : Shape).Idx → EReal) (a : Fin A) (b : Fin B) : EReal := f (ix2 a b)

/-- Entry (row, n) of the first region's output is the sum over e of the stacked weights at (row, e) times the
    features at (e, n). -/
theorem out_at (c : Dev nD) (row : Fin 640) (n : Fin 4096) :
    rd (A := 640) (B := 4096) (W2 (F := Ideal) m ρ c (Proc.devRef .tc main_v1)) row n
      = ∑ e : Fin 512, rd (A := 640) (B := 512) (V1 (F := Ideal) m ρ c main_v0) row e
          * rd (A := 512) (B := 4096) (m ((c.tc : Thread nD τ).loc main_arg0)) e n := by
  refine (congrFun (out_eq m ρ c) (ix2 row n)).trans ?_
  show (∑ e : Fin 512, rd (A := 640) (B := 512) (V1 (F := Ideal) m ρ c main_v0) row e
      * rd (A := 512) (B := 4096) (V1 (F := Ideal) m ρ c main_arg0) e n) = _
  exact Finset.sum_congr rfl fun e _ => congrArg (fun x : S512x4096.Idx → EReal =>
    rd (A := 640) (B := 512) (V1 (F := Ideal) m ρ c main_v0) row e * rd (A := 512) (B := 4096) x e n) (feat_eq m ρ c)

/-! ## The three projections -/

/-- The keys the attention region is entered with are Wk X of the launch arguments. -/
theorem proj_k (c : Dev nD) (d : Fin 64) (n : Fin 4096) :
    (V3 (F := Ideal) m ρ c main_v2 : S64x4096.Idx → EReal) (ix2 d n)
      = Cert.Spec.proj (m ((c.tc : Thread nD τ).loc main_arg1)) (m ((c.tc : Thread nD τ).loc main_arg0)) d n := by
  refine (slice_k_at m ρ c d n).trans ((out_at m ρ c _ n).trans ?_)
  unfold Cert.Spec.proj
  exact Finset.sum_congr rfl fun e _ => congrArg (fun t : EReal =>
    t * rd (A := 512) (B := 4096) (m ((c.tc : Thread nD τ).loc main_arg0)) e n) (stack_k_at m ρ c d e)

/-- The queries the attention region is entered with are Wq X of the launch arguments. -/
theorem proj_q (c : Dev nD) (d : Fin 64) (n : Fin 4096) :
    (V3 (F := Ideal) m ρ c main_v3 : S64x4096.Idx → EReal) (ix2 d n)
      = Cert.Spec.proj (m ((c.tc : Thread nD τ).loc main_arg2)) (m ((c.tc : Thread nD τ).loc main_arg0)) d n := by
  refine (slice_q_at m ρ c d n).trans ((out_at m ρ c _ n).trans ?_)
  unfold Cert.Spec.proj
  exact Finset.sum_congr rfl fun e _ => congrArg (fun t : EReal =>
    t * rd (A := 512) (B := 4096) (m ((c.tc : Thread nD τ).loc main_arg0)) e n) (stack_q_at m ρ c d e)

/-- The values the attention region is entered with are Wv X of the launch arguments. -/
theorem proj_v (c : Dev nD) (r : Fin 512) (n : Fin 4096) :
    (V3 (F := Ideal) m ρ c main_v4 : S512x4096.Idx → EReal) (ix2 r n)
      = Cert.Spec.proj (m ((c.tc : Thread nD τ).loc main_arg3)) (m ((c.tc : Thread nD τ).loc main_arg0)) r n := by
  refine (slice_v_at m ρ c r n).trans ((out_at m ρ c _ n).trans ?_)
  unfold Cert.Spec.proj
  exact Finset.sum_congr rfl fun e _ => congrArg (fun t : EReal =>
    t * rd (A := 512) (B := 4096) (m ((c.tc : Thread nD τ).loc main_arg0)) e n) (stack_v_at m ρ c r e)

end Cert.KernelIdeal.Hand

end
-- ==== Proof.KIAttn.lean ====
/-
  The kernel program's result is the attention function of its arguments.

  The attention region is entered with three projections — the row slices 0–63, 64–127 and 128–639 of the product of the
  stacked weights with the features — and these are Wk X, Wq X and Wv X of the launch arguments. So what the region
  leaves in the result array, the attention output of the projections it was entered with, is the specification's
  attention of the four arguments, index by index; no law of arithmetic is used, only the reading of the layout.
-/
import proofs.«144916_j9148280341193_2_alg».proof.Proof.KIRun
import proofs.«144916_j9148280341193_2_alg».proof.Proof.KIValue1
import proofs.«144916_j9148280341193_2_alg».proof.Proof.KIHost
import proofs.«144916_j9148280341193_2_alg».proof.Proof.Spec

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- What the attention region's write-backs leave in the result array is the attention of the launch arguments. -/
theorem out_is_attn (c : Dev nD) :
    (dat1 (V3 (F := Ideal) m ρ) c).arrAt 3 cfg1.N
      = Cert.Spec.attn (m ((c.tc : Thread nD τ).loc main_arg0)) (m ((c.tc : Thread nD τ).loc main_arg1))
          (m ((c.tc : Thread nD τ).loc main_arg2)) (m ((c.tc : Thread nD τ).loc main_arg3)) := by
  rw [final1]
  funext o
  obtain ⟨i, c', rfl⟩ : ∃ (i : Fin 4096) (c' : Fin 512), o = ix2 i c' := ⟨o 0, o 1, eq_ix2 o⟩
  rw [Cert.Spec.attn_ix2]
  unfold out1 attnOf Cert.Spec.attnAt Cert.Spec.score
  refine congr (congrArg Cert.Spec.softRow (funext fun j => Finset.sum_congr rfl fun d _ => ?_)) (funext fun j => ?_)
  · exact congr (congrArg HMul.hMul (proj_k m ρ c d i)) (proj_q m ρ c d j)
  · exact proj_v m ρ c c' j

/-- The program's run with its result named: the result array ends at the attention of the launch arguments, and the
    arguments end as launched. -/
theorem run_attn : θ_run defs (onTc (τ := τ) (main (F := Ideal))) ⟨m, fun _ => 0, ρ⟩ (fun r => ∀ c : Dev nD,
      r.2.mem ((c.tc : Thread nD τ).loc main_v5)
          = Cert.Spec.attn (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (out_is_attn m ρ c), (h c).2⟩) (run_out (F := Ideal) m ρ)

end Cert.KernelIdeal.Hand

end
-- ==== Proof.SoftmaxLaw.lean ====
/-
  The softmax-weighted mean, dividing before or after the weighted sum.

  For real scores s_j and real values v_j put m = max_j s_j, e_j = exp(s_j - m) and l = sum_j e_j. Then l is a
  positive real, so dividing by l is multiplying by the real 1/l, and multiplication by a real distributes over a
  finite sum of reals:

      sum_j (e_j / l) v_j  =  (sum_j e_j v_j) / l.

  On the extended reals the distributive law fails at the infinities, which is why every score and every value is
  assumed to be a real number. The maximum is the fold of max from the bottom element; over a nonempty family of reals
  it is a real, because it lies above the first entry and strictly below the top element.
-/
import proofs.«144916_j9148280341193_2_alg».proof.Proof.Spec

noncomputable section

namespace Cert.SoftmaxLaw

open Idealize.ShloMosaic

/-- The coercion of the reals into the extended reals commutes with finite sums. -/
theorem coe_finset_sum {ι : Type} (t : Finset ι) (f : ι → ℝ) :
    ((∑ i ∈ t, f i : ℝ) : EReal) = ∑ i ∈ t, (f i : EReal) := by
  classical
  refine Finset.induction_on t (by simp) ?_
  intro a u ha ih
  rw [Finset.sum_insert ha, Finset.sum_insert ha, EReal.coe_add, ih]

/-- A family of extended reals all of whose members are reals is the coercion of a family of reals. -/
theorem exists_real_fun {ι : Type} (s : ι → EReal) (hs : ∀ j, ∃ r : ℝ, s j = (r : EReal)) :
    ∃ r : ι → ℝ, s = fun j => (r j : EReal) :=
  ⟨fun j => (hs j).choose, funext fun j => (hs j).choose_spec⟩

/-- A finite sum of products of reals is a real. -/
theorem real_sum_mul {n : ℕ} (w x : Fin n → EReal) (hw : ∀ e, ∃ r : ℝ, w e = (r : EReal))
    (hx : ∀ e, ∃ r : ℝ, x e = (r : EReal)) : ∃ r : ℝ, (∑ e : Fin n, w e * x e) = (r : EReal) := by
  obtain ⟨a, rfl⟩ := exists_real_fun w hw
  obtain ⟨b, rfl⟩ := exists_real_fun x hx
  refine ⟨∑ e : Fin n, a e * b e, ?_⟩
  rw [coe_finset_sum]
  exact Finset.sum_congr rfl fun e _ => (EReal.coe_mul _ _).symm

/-- The fold of max from the bottom element over 4096 reals is a real: it is at least the first entry, hence not the
    bottom element, and every entry is below the top element, hence so is the fold. -/
theorem fold_max_real (s : Fin 4096 → EReal) (hs : ∀ j, ∃ r : ℝ, s j = (r : EReal)) :
    ∃ M : ℝ, (Finset.univ : Finset (Fin 4096)).fold max (⊥ : EReal) s = (M : EReal) := by
  have hlt : (Finset.univ : Finset (Fin 4096)).fold max (⊥ : EReal) s < ⊤ := by
    rw [Finset.fold_max_lt]
    refine ⟨bot_lt_top, fun j _ => ?_⟩
    obtain ⟨r, hr⟩ := hs j
    rw [hr]
    exact EReal.coe_lt_top r
  have hgt : ⊥ < (Finset.univ : Finset (Fin 4096)).fold max (⊥ : EReal) s := by
    rw [Finset.lt_fold_max]
    refine Or.inr ⟨0, Finset.mem_univ _, ?_⟩
    obtain ⟨r, hr⟩ := hs 0
    rw [hr]
    exact EReal.bot_lt_coe r
  exact ⟨_, (EReal.coe_toReal hlt.ne hgt.ne').symm⟩

/-- Dividing each weight by the normaliser before the weighted sum gives the softmax-weighted mean, which divides
    after it, when the scores and the values are reals. -/
theorem refRow_eq_softRow (s v : Fin 4096 → EReal) (hs : ∀ j, ∃ r : ℝ, s j = (r : EReal))
    (hv : ∀ j, ∃ r : ℝ, v j = (r : EReal)) :
    (∑ j : Fin 4096, Ideal.div (Ideal.exp (s j - max (⊥ : EReal) ((Finset.univ : Finset (Fin 4096)).fold max (⊥ : EReal) s)))
        ((0 : EReal) + ∑ k : Fin 4096, Ideal.exp (s k - max (⊥ : EReal) ((Finset.univ : Finset (Fin 4096)).fold max (⊥ : EReal) s))) * v j)
      = Cert.Spec.softRow s v := by
  obtain ⟨M, hM⟩ := fold_max_real s hs
  obtain ⟨r, rfl⟩ := exists_real_fun s hs
  obtain ⟨w, rfl⟩ := exists_real_fun v hv
  unfold Cert.Spec.softRow
  rw [hM, max_eq_right (bot_le : (⊥ : EReal) ≤ (M : EReal)), zero_add]
  -- every weight is the coercion of a positive real
  have hexp : ∀ j : Fin 4096, Ideal.exp ((r j : EReal) - (M : EReal)) = ((Real.exp (r j - M) : ℝ) : EReal) :=
    fun j => by rw [← EReal.coe_sub, Ideal.exp_coe]
  have hden : (∑ k : Fin 4096, Ideal.exp ((r k : EReal) - (M : EReal)))
      = ((∑ k : Fin 4096, Real.exp (r k - M) : ℝ) : EReal) := by
    rw [coe_finset_sum]
    exact Finset.sum_congr rfl fun k _ => hexp k
  have hnum : (∑ j : Fin 4096, Ideal.exp ((r j : EReal) - (M : EReal)) * (w j : EReal))
      = ((∑ j : Fin 4096, Real.exp (r j - M) * w j : ℝ) : EReal) := by
    rw [coe_finset_sum]
    exact Finset.sum_congr rfl fun j _ => by rw [hexp j, EReal.coe_mul]
  have hpos : 0 < ∑ k : Fin 4096, Real.exp (r k - M) :=
    Finset.sum_pos (fun k _ => Real.exp_pos _) ⟨0, Finset.mem_univ _⟩
  rw [hden, hnum, Ideal.div_coe hpos.ne', ← EReal.coe_mul]
  -- the left side, term by term, is a real too
  have hterm : ∀ j : Fin 4096,
      Ideal.div (Ideal.exp ((r j : EReal) - (M : EReal))) ((∑ k : Fin 4096, Real.exp (r k - M) : ℝ) : EReal) * (w j : EReal)
        = ((Real.exp (r j - M) * (1 / ∑ k : Fin 4096, Real.exp (r k - M)) * w j : ℝ) : EReal) :=
    fun j => by rw [Ideal.div_coe hpos.ne', hexp j, ← EReal.coe_mul, ← EReal.coe_mul]
  rw [Finset.sum_congr rfl fun j _ => hterm j, ← coe_finset_sum]
  refine congrArg (fun t : ℝ => (t : EReal)) ?_
  rw [Finset.sum_mul]
  exact Finset.sum_congr rfl fun j _ => by ring

end Cert.SoftmaxLaw

end
-- ==== Proof.RefAttn.lean ====
/-
  The reference program's result is the attention function of its arguments.

  The reference computes K = Wk X, Q = Wq X, V = Wv X, the scores s(i, j) = sum_d K(d, i) Q(d, j), the row maxima
  m_i (a fold of max from the bottom element, then one more max against the bottom element), the weights
  e(i, j) = exp(s(i, j) - m_i), their row sums l_i = 0 + sum_j e(i, j), the quotients e(i, j) / l_i, and last the
  product of the quotients with the transpose of V. Each stage is read at one index; the last step, from dividing
  before the weighted sum to dividing after it, is the softmax law for real scores and values.
-/
import proofs.«144916_j9148280341193_2_alg».proof.Defs
import proofs.«144916_j9148280341193_2_alg».proof.Proof.Gen.ReferenceIdeal.Run
import proofs.«144916_j9148280341193_2_alg».proof.Proof.Gen.ReferenceIdeal.Read
import proofs.«144916_j9148280341193_2_alg».proof.Proof.Gen.Pre_finite_inputs
import proofs.«144916_j9148280341193_2_alg».proof.Proof.Spec
import proofs.«144916_j9148280341193_2_alg».proof.Proof.SoftmaxLaw

noncomputable section

namespace Cert.RefAttn

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo

/-- The argument arrays: the features, a key or query weight matrix, the value weight matrix. -/
abbrev TX : Type := (⟨S512x4096, .f32⟩ : BufTy).Contents (Elt Ideal)
abbrev TKQ : Type := (⟨S64x512, .f32⟩ : BufTy).Contents (Elt Ideal)
abbrev TV : Type := (⟨S512x512, .f32⟩ : BufTy).Contents (Elt Ideal)

/-! ## The three projections and the scores -/

/-- Entry (d, n) of the first product is entry (d, n) of Wk X. -/
theorem k_at (x0 : TX) (x1 : TKQ) (d : Fin 64) (n : Fin 4096) :
    val_main_v0 (F := Ideal) x0 x1 (ix2 d n) = Cert.Spec.proj x1 x0 d n := by
  rw [val_main_v0_apply]
  unfold Cert.Spec.proj
  refine Finset.sum_congr rfl fun k _ => ?_
  have el : lidx_main_v0 (ix2 d n) k = ix2 d k :=
    funext fun a => Fin.ext (by match a with | ⟨0, _⟩ => rfl | ⟨1, _⟩ => rfl)
  have er : ridx_main_v0 (ix2 d n) k = ix2 k n :=
    funext fun a => Fin.ext (by match a with | ⟨0, _⟩ => rfl | ⟨1, _⟩ => rfl)
  rw [el, er]

/-- Entry (d, n) of the second product is entry (d, n) of Wq X. -/
theorem q_at (x0 : TX) (x2 : TKQ) (d : Fin 64) (n : Fin 4096) :
    val_main_v1 (F := Ideal) x0 x2 (ix2 d n) = Cert.Spec.proj x2 x0 d n := by
  rw [val_main_v1_apply]
  unfold Cert.Spec.proj
  refine Finset.sum_congr rfl fun k _ => ?_
  have el : lidx_main_v1 (ix2 d n) k = ix2 d k :=
    funext fun a => Fin.ext (by match a with | ⟨0, _⟩ => rfl | ⟨1, _⟩ => rfl)
  have er : ridx_main_v1 (ix2 d n) k = ix2 k n :=
    funext fun a => Fin.ext (by match a with | ⟨0, _⟩ => rfl | ⟨1, _⟩ => rfl)
  rw [el, er]

/-- Entry (c, n) of the third product is entry (c, n) of Wv X. -/
theorem v_at (x0 : TX) (x3 : TV) (c : Fin 512) (n : Fin 4096) :
    val_main_v2 (F := Ideal) x0 x3 (ix2 c n) = Cert.Spec.proj x3 x0 c n := by
  rw [val_main_v2_apply]
  unfold Cert.Spec.proj
  refine Finset.sum_congr rfl fun k _ => ?_
  have el : lidx_main_v2 (ix2 c n) k = ix2 c k :=
    funext fun a => Fin.ext (by match a with | ⟨0, _⟩ => rfl | ⟨1, _⟩ => rfl)
  have er : ridx_main_v2 (ix2 c n) k = ix2 k n :=
    funext fun a => Fin.ext (by match a with | ⟨0, _⟩ => rfl | ⟨1, _⟩ => rfl)
  rw [el, er]

/-- Entry (i, j) of the product of the transposed keys with the queries is the score of position j for position i. -/
theorem score_at (x0 : TX) (x1 x2 : TKQ) (i j : Fin 4096) :
    val_main_v3 (F := Ideal) x0 x1 x2 (ix2 i j) = Cert.Spec.score x0 x1 x2 i j := by
  rw [val_main_v3_apply]
  unfold Cert.Spec.score
  refine Finset.sum_congr rfl fun k _ => ?_
  have el : lidx_main_v3 (ix2 i j) k = ix2 k i :=
    funext fun a => Fin.ext (by match a with | ⟨0, _⟩ => rfl | ⟨1, _⟩ => rfl)
  have er : ridx_main_v3 (ix2 i j) k = ix2 k j :=
    funext fun a => Fin.ext (by match a with | ⟨0, _⟩ => rfl | ⟨1, _⟩ => rfl)
  rw [el, er, k_at, q_at]

/-! ## The row maxima -/

/-- The pattern of the reference's initial value for the maximum denotes the bottom element. -/
theorem neg_inf_eq_bot : (FloatOps.ofBits (F := Ideal) .f32 0xFF800000#32 : EReal) = ⊥ := by
  simp [Ideal.ofBits, Ideal.ieee]

/-- The pattern of the reference's initial value for the sum denotes zero. -/
theorem zero_bits_eq_zero : (FloatOps.ofBits (F := Ideal) .f32 0x00000000#32 : EReal) = 0 := by
  simp [Ideal.ofBits, Ideal.ieee]

/-- Row index i of the scores with column k put back on the reduced axis is (i, k). -/
theorem lift_row (h : S4096x4096.Reduces [1] S4096) (i : Fin 4096) (k : Fin (S4096x4096.size 1)) :
    h.lift (ix1 i) k = ix2 i (⟨k.val, k.isLt⟩ : Fin 4096) := by
  funext c
  apply Fin.ext
  match c with
  | ⟨0, _⟩ => rfl
  | ⟨1, _⟩ => rfl

/-- The reduce with a maximum body along the second axis of the scores is, in row i, the fold of max from the bottom
    element over the scores of that row. -/
theorem rowmax_at (x0 : TX) (x1 x2 : TKQ) (i : Fin 4096) :
    val_main_v4 (F := Ideal) x0 x1 x2 (ix1 i)
      = (Finset.univ : Finset (Fin 4096)).fold max (⊥ : EReal) (fun j => Cert.Spec.score x0 x1 x2 i j) := by
  have h : S4096x4096.Reduces [1] S4096 := by decide
  unfold val_main_v4
  refine (Host.reduce_eq_fold_single (FloatOps.maximumf (F := Ideal) (φ := .f32)) (val_main_v3 (F := Ideal) x0 x1 x2)
    (val_main_cst (F := Ideal)) reducesTo_S4096x4096_S4096_d1 h h_S_ (ix1 i)).trans ?_
  have hf : (val_main_v3 (F := Ideal) x0 x1 x2 ∘ h.lift (ix1 i)) = fun j : Fin 4096 => Cert.Spec.score x0 x1 x2 i j :=
    funext fun j => (congrArg (val_main_v3 (F := Ideal) x0 x1 x2) (lift_row h i j)).trans (score_at x0 x1 x2 i _)
  have hb : val_main_cst (F := Ideal) (Shape.Idx.first h_S_) = (⊥ : EReal) := neg_inf_eq_bot
  refine Eq.trans ?_ (congrArg (fun f => Finset.fold max (⊥ : EReal) f (Finset.univ : Finset (Fin 4096))) hf)
  exact congrArg (fun b => Finset.fold max b (val_main_v3 (F := Ideal) x0 x1 x2 ∘ h.lift (ix1 i)) (Finset.univ : Finset (Fin 4096))) hb

/-- The value the reference subtracts in row i: the row maximum joined once more with the bottom element. -/
theorem m_at (x0 : TX) (x1 x2 : TKQ) (i : Fin 4096) :
    val_main_v6 (F := Ideal) x0 x1 x2 (ix1 i)
      = max (⊥ : EReal) ((Finset.univ : Finset (Fin 4096)).fold max (⊥ : EReal) (fun j => Cert.Spec.score x0 x1 x2 i j)) := by
  rw [val_main_v6_apply, val_main_v5_apply, val_main_cst_0_apply, rowmax_at]
  show max (FloatOps.ofBits (F := Ideal) .f32 0xFF800000#32 : EReal) _ = _
  rw [neg_inf_eq_bot]

/-! ## The weights, their row sums and the quotients -/

/-- The weight of position j for position i. -/
theorem e_at (x0 : TX) (x1 x2 : TKQ) (i j : Fin 4096) :
    val_main_v10 (F := Ideal) x0 x1 x2 (ix2 i j)
      = Ideal.exp (Cert.Spec.score x0 x1 x2 i j
          - max (⊥ : EReal) ((Finset.univ : Finset (Fin 4096)).fold max (⊥ : EReal) (fun j => Cert.Spec.score x0 x1 x2 i j))) := by
  rw [val_main_v10_apply, val_main_v9_apply, val_main_v8_apply, val_main_v7_apply, score_at]
  have e : idx_main_v7 (idx_main_v8 (ix2 i j)) = ix1 i :=
    funext fun a => Fin.ext (by match a with | ⟨0, _⟩ => rfl)
  rw [e, m_at]
  rfl

/-- The sum of the weights of row i, from the initial value zero. -/
theorem l_at (x0 : TX) (x1 x2 : TKQ) (i : Fin 4096) :
    val_main_v11 (F := Ideal) x0 x1 x2 (ix1 i)
      = (0 : EReal) + ∑ k : Fin 4096, Ideal.exp (Cert.Spec.score x0 x1 x2 i k
          - max (⊥ : EReal) ((Finset.univ : Finset (Fin 4096)).fold max (⊥ : EReal) (fun j => Cert.Spec.score x0 x1 x2 i j))) := by
  rw [val_main_v11_apply]
  have hz : val_main_cst_1 (F := Ideal) (Shape.Idx.first h_S_) = (0 : EReal) := zero_bits_eq_zero
  rw [hz]
  refine congrArg (fun t => (0 : EReal) + t) (Finset.sum_congr rfl fun k _ => ?_)
  have e : idx_main_v11 (ix1 i) k = ix2 i k :=
    funext fun a => Fin.ext (by match a with | ⟨0, _⟩ => rfl | ⟨1, _⟩ => rfl)
  rw [e, e_at]

/-- The quotient of the weight of position j for position i by the sum of the weights of row i. -/
theorem a_at (x0 : TX) (x1 x2 : TKQ) (i j : Fin 4096) :
    val_main_v14 (F := Ideal) x0 x1 x2 (ix2 i j)
      = Ideal.div
          (Ideal.exp (Cert.Spec.score x0 x1 x2 i j
            - max (⊥ : EReal) ((Finset.univ : Finset (Fin 4096)).fold max (⊥ : EReal) (fun j => Cert.Spec.score x0 x1 x2 i j))))
          ((0 : EReal) + ∑ k : Fin 4096, Ideal.exp (Cert.Spec.score x0 x1 x2 i k
            - max (⊥ : EReal) ((Finset.univ : Finset (Fin 4096)).fold max (⊥ : EReal) (fun j => Cert.Spec.score x0 x1 x2 i j)))) := by
  rw [val_main_v14_apply, val_main_v13_apply, val_main_v12_apply, e_at]
  have e : idx_main_v12 (idx_main_v13 (ix2 i j)) = ix1 i :=
    funext fun a => Fin.ext (by match a with | ⟨0, _⟩ => rfl)
  rw [e, l_at]
  rfl

/-- Entry (j, c) of the transposed values is entry (c, j) of Wv X. -/
theorem vt_at (x0 : TX) (x3 : TV) (j : Fin 4096) (c : Fin 512) :
    val_main_v15 (F := Ideal) x0 x3 (ix2 j c) = Cert.Spec.proj x3 x0 c j := by
  rw [val_main_v15_apply]
  have e : idx_main_v15 (ix2 j c) = ix2 c j :=
    funext fun a => Fin.ext (by match a with | ⟨0, _⟩ => rfl | ⟨1, _⟩ => rfl)
  rw [e, v_at]

/-! ## Real arguments give real projections and real scores -/

theorem proj_real {R : ℕ} (w : (⟨2, ![R, 512]⟩ : Shape).Idx → EReal) (x : Cert.Spec.SX.Idx → EReal)
    (hw : ∀ i, ∃ r : ℝ, w i = (r : EReal)) (hx : ∀ i, ∃ r : ℝ, x i = (r : EReal)) (r : Fin R) (n : Fin 4096) :
    ∃ t : ℝ, Cert.Spec.proj w x r n = (t : EReal) :=
  Cert.SoftmaxLaw.real_sum_mul (fun e : Fin 512 => w (ix2 r e)) (fun e : Fin 512 => x (ix2 e n)) (fun _ => hw _) (fun _ => hx _)

theorem score_real (x : Cert.Spec.SX.Idx → EReal) (wk wq : Cert.Spec.SKQ.Idx → EReal)
    (hx : ∀ i, ∃ r : ℝ, x i = (r : EReal)) (hk : ∀ i, ∃ r : ℝ, wk i = (r : EReal)) (hq : ∀ i, ∃ r : ℝ, wq i = (r : EReal))
    (i j : Fin 4096) : ∃ t : ℝ, Cert.Spec.score x wk wq i j = (t : EReal) :=
  Cert.SoftmaxLaw.real_sum_mul (fun d : Fin 64 => Cert.Spec.proj wk x d i) (fun d : Fin 64 => Cert.Spec.proj wq x d j)
    (fun d => proj_real wk x hk hx d i) (fun d => proj_real wq x hq hx d j)

/-! ## The result -/

/-- On real arguments the reference's result is the attention function of them. -/
theorem ref_is_attn (x0 : (⟨Cert.ReferenceIdeal.S512x4096, .f32⟩ : BufTy).Contents (Elt Ideal))
    (x1 x2 : (⟨Cert.ReferenceIdeal.S64x512, .f32⟩ : BufTy).Contents (Elt Ideal))
    (x3 : (⟨Cert.ReferenceIdeal.S512x512, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    Cert.ReferenceIdeal.Read.val_main_v16 (F := Ideal) x0 x1 x2 x3 = Cert.Spec.attn x0 x1 x2 x3 := by
  funext o
  obtain ⟨i, c, rfl⟩ : ∃ (i : Fin 4096) (c : Fin 512), o = ix2 i c := ⟨o 0, o 1, eq_ix2 o⟩
  rw [Cert.Spec.attn_ix2, val_main_v16_apply]
  unfold Cert.Spec.attnAt
  refine Eq.trans (Finset.sum_congr rfl fun k _ => ?_)
    (Cert.SoftmaxLaw.refRow_eq_softRow (fun j => Cert.Spec.score x0 x1 x2 i j) (fun j => Cert.Spec.proj x3 x0 c j)
      (fun j => score_real x0 x1 x2 h0 h1 h2 i j) (fun j => proj_real x3 x0 h3 h0 c j))
  have el : lidx_main_v16 (ix2 i c) k = ix2 i k :=
    funext fun a => Fin.ext (by match a with | ⟨0, _⟩ => rfl | ⟨1, _⟩ => rfl)
  have er : ridx_main_v16 (ix2 i c) k = ix2 k c :=
    funext fun a => Fin.ext (by match a with | ⟨0, _⟩ => rfl | ⟨1, _⟩ => rfl)
  rw [el, er, a_at, vt_at]

/-! ## The run -/

/-- From any memory whose argument arrays hold reals, every weakly fair execution of the reference terminates with the
    attention function of the arguments in its result and the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg)
    (hreal : ∀ c : Dev Cert.ReferenceIdeal.nD,
      (∀ i, ∃ r : ℝ, m ((c.tc : Thread Cert.ReferenceIdeal.nD Cert.ReferenceIdeal.τ).loc Cert.ReferenceIdeal.main_arg0) i = (r : EReal))
      ∧ (∀ i, ∃ r : ℝ, m ((c.tc : Thread Cert.ReferenceIdeal.nD Cert.ReferenceIdeal.τ).loc Cert.ReferenceIdeal.main_arg1) i = (r : EReal))
      ∧ (∀ i, ∃ r : ℝ, m ((c.tc : Thread Cert.ReferenceIdeal.nD Cert.ReferenceIdeal.τ).loc Cert.ReferenceIdeal.main_arg2) i = (r : EReal))
      ∧ (∀ i, ∃ r : ℝ, m ((c.tc : Thread Cert.ReferenceIdeal.nD Cert.ReferenceIdeal.τ).loc Cert.ReferenceIdeal.main_arg3) i = (r : EReal))) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v16)
          = Cert.Spec.attn (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c =>
      ⟨((h c).1.trans (Cert.ReferenceIdeal.Read.val_main_v16_eq (F := Ideal) _ _ _ _)).trans
          (ref_is_attn _ _ _ _ (hreal c).1 (hreal c).2.1 (hreal c).2.2.1 (hreal c).2.2.2),
        (h c).2⟩)
    (Cert.ReferenceIdeal.Value.run (F := Ideal) m ρ)

/-- The reference terminates without a fault from any memory and leaves its four argument arrays as they were:
    the run of the program, with the statement about the result dropped. -/
theorem frame_ri : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono (fun _ h c => (h c).2)
    (Cert.ReferenceIdeal.Value.run (F := Ideal) m ρ)

end Cert.RefAttn

end
-- ==== Proof.Finite.lean ====
/-
  Finiteness of the arguments from the precondition.
  The precondition compares, entry by entry, the absolute value of each of the four argument arrays with plus infinity,
  takes the conjunction of each array's comparisons over all of its entries, and takes the conjunction of the four results.
  If the final bit is one then every single comparison is one, that is max(x, -x) < +inf for each entry x, which on the
  extended reals leaves only the real numbers: +inf fails directly, and -inf fails because its negative is +inf.
-/
import proofs.«144916_j9148280341193_2_alg».proof.Pre_finite_inputs
import proofs.«144916_j9148280341193_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic

/-- The pattern 0x7F800000 denotes plus infinity. -/
theorem ofBits_inf : Ideal.ofBits .f32 0x7F800000#32 = (⊤ : EReal) := by
  simp [Ideal.ofBits, Ideal.ieee]

/-- An extended real whose absolute value max(x, -x) compares below plus infinity is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [ofBits_inf] at h
  have hlt : max x (-x) < ⊤ := by
    by_contra hn
    simp [Ideal.cmp, hn] at h
  induction x using EReal.rec with
  | bot => exact absurd hlt (by simp)
  | coe r => exact ⟨r, rfl⟩
  | top => exact absurd hlt (by simp)

/-- The result of a reduction over all axes has one index. -/
instance : Subsingleton Cert.Pre_finite_inputs.S_.Idx := ⟨fun a b => funext fun d => d.elim0⟩

/-- Under the precondition every entry of every argument is a real number. -/
theorem real_of_pre [Cert.Pre_finite_inputs.Facts]
    (a0 : FVec Ideal Cert.Pre_finite_inputs.S512x4096 .f32) (a1 a2 : FVec Ideal Cert.Pre_finite_inputs.S64x512 .f32)
    (a3 : FVec Ideal Cert.Pre_finite_inputs.S512x512 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have e := congrFun h ValueIdx.ix0
  dsimp only [Cert.Pre_finite_inputs.fn, Cert.Pre_finite_inputs.fn_part1] at e
  obtain ⟨e012, e3⟩ := IntOp.andi_eq_one.1 e
  obtain ⟨e01, e2⟩ := IntOp.andi_eq_one.1 e012
  obtain ⟨e0, e1⟩ := IntOp.andi_eq_one.1 e01
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i)⟩

end Cert.Finite

end
-- ==== Proof.lean ====
/-
  Self-attention over 4096 positions, computed by two pipelined regions, against the plain formulation.

  THE TWO PROGRAMS. From a 512 x 4096 feature matrix X and weights Wk, Wq (64 x 512), Wv (512 x 512) both compute
  K = Wk X, Q = Wq X, V = Wv X, the scores s(i, j) = sum_d K(d, i) Q(d, j), their row maxima m_i and the weights
  e(i, j) = exp(s(i, j) - m_i) with row sums l_i. The kernel stacks the three weight matrices, multiplies the stack with X
  in one region (four column blocks), slices the product back into K, Q, V, and in a second region (eight blocks of
  512 rows) forms ( sum_j e(i, j) V(c, j) ) / l_i. The reference normalises first: sum_j ( e(i, j) / l_i ) V(c, j).

  WHY THEY AGREE. Reading both at the exact extended reals, a change of float format is the identity and a matrix
  product is the plain sum, so the kernel's result is, index by index, the first formula of the argument arrays — this
  is pure bookkeeping of blocks, slices and the stacking. The reference's result is the second formula. The two are
  equal when every input is a real number: then every score is real, the row maximum (a maximum over a nonempty row of
  reals, taken from the bottom element) is real, every weight e(i, j) is a positive real, l_i is a positive real, and
  dividing by l_i is multiplying by its real inverse, which distributes over the finite sum. On the extended reals
  that last step fails at infinities, which is where the precondition — every input finite — is used.

  THE FRAMES. Each program runs to the end without a fault and leaves its four argument arrays as launched: for the two
  kernel programs by running the two regions point by point between the host operations, for the reference by its
  straight-line run. The idealised kernel is the printed kernel read at the exact instance with no rewrite applied,
  so nothing is owed for the passage between them.
-/
import proofs.«144916_j9148280341193_2_alg».proof.Defs
import proofs.«144916_j9148280341193_2_alg».proof.Proof.Gen.Kernel
import proofs.«144916_j9148280341193_2_alg».proof.Proof.Gen.KernelIdeal
import proofs.«144916_j9148280341193_2_alg».proof.Proof.Gen.ReferenceIdeal
import proofs.«144916_j9148280341193_2_alg».proof.Proof.Gen.Pre_finite_inputs
import proofs.«144916_j9148280341193_2_alg».proof.Proof.KRun
import proofs.«144916_j9148280341193_2_alg».proof.Proof.KIRun
import proofs.«144916_j9148280341193_2_alg».proof.Proof.KIAttn
import proofs.«144916_j9148280341193_2_alg».proof.Proof.RefAttn
import proofs.«144916_j9148280341193_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealised kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The ideal pass rewrote nothing. -/
theorem preserves : Cert.preserves_Kernel_KernelIdeal := trivial

/-- From memories agreeing on finite arguments both idealised programs end with the attention of those arguments in
    their result arrays: the kernel's by the reading of its layout, the reference's by the softmax law on reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal := fun c => Cert.Finite.real_of_pre _ _ _ _ (hpre c)
  refine ⟨fun c => Cert.Spec.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run_attn m ρ, ?_⟩
  refine (θ_run Cert.ReferenceIdeal.defs _ _).mono (fun _ h c => ⟨(h c).1.trans ?_, (h c).2⟩)
    (Cert.RefAttn.ref_run m' ρ' fun c => by
      rw [(hagree c).1, (hagree c).2.1, (hagree c).2.2.1, (hagree c).2.2.2]; exact hreal c)
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, Cert.RefAttn.frame_ri, preserves, algebraic⟩

end Cert.Proof

end
